-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : IVec S4096x4096 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .bf16⟩
  | .hbm, ⟨5, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Kernel.Tiles.lean ====
/-
  The first pallas_call — the weight table's tiles — as a pipelined region, at any float instance.

  The grid is 4 × 4. At point (i, j) the pipeline fetches tile (j, i) of the weight matrix and tile (j, i) of the mask's
  0/1 image (the index maps swap the two block coordinates), the body multiplies the two tiles entry by entry, takes
  tanh, transposes the tile and stores it, rounded to the table's float format, as tile (i, j) of the table. Every
  point fetches both inputs and writes its output tile back.

  What is proved here, for any contents V of the core's buffers when the region is entered: each input window's
  staging buffer holds its tile at every point; the body, run on whole staging buffers, leaves the inputs as they were
  and the output buffer at the one stored tile (the body's single store covers the buffer); hence the obligation the
  pipeline asks of the body at every point. The body also loads the output buffer before storing into it; what it
  reads there is never used.
-/
import proofs.«144428_j52922587021428_1_alg».proof.Proof.Gen.Kernel.Launch
import proofs.«144428_j52922587021428_1_alg».proof.Proof.Gen.Kernel.Skeleton
import proofs.«144428_j52922587021428_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its tile at every point, for any proof data over these arrays whose
    body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The same for the mask window. -/
theorem before0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## What the body stores -/

/-- The whole 1024 × 1024 buffer as a rectangle: every access of the body goes through it. -/
abbrev whole0 : Rect S1024x1024 := Rect.unit (s := S1024x1024) ![0, 0] S1024x1024.size inb_S1024x1024_S1024x1024_0_0

/-- The output buffer after the body, from the two input tiles: the one store, of the transposed tanh tile. -/
def stored0 (x0 : Vec F S1024x1024 .f32) (x1 : Vec F S1024x1024 .f32) : Vec F S1024x1024 .bf16 :=
  View.canon [⟨whole0, k0_pay1 (View.ld x0 whole0) (View.ld x1 whole0)⟩]

/-- The one store covers the buffer. -/
theorem cover0 (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

/-! ## The body's triple -/

set_option maxHeartbeats 1000000 in
/-- The body on whole staging buffers — the inputs' at contents `x0`, `x1`, the output's at anything — runs to the
    continuation with the inputs as they were and the output at `stored0 x0 x1`. -/
theorem sound_tiles (c : Dev nD) (E : Set ℕ) (i : grid0.Coords)
    (arg2 : Memref sig .tc .vmem S1024x1024 .f32) (harg2 : arg2.IsWhole) (arg3 : Memref sig .tc .vmem S1024x1024 .f32) (harg3 : arg3.IsWhole)
    (arg4 : Memref sig .tc .vmem S1024x1024 .bf16) (harg4 : arg4.IsWhole)
    (x0 : Vec F S1024x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored0 x0 x1)) -∗ K ⟨⟩))
      ⊢ wp frame (wpE (defs₀ (F := F)) Variants.none c none) E (cc0__preprocess_kernel i arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of this pipeline on core `c`: the arrays as the region finds them; after the body each input's
    buffer at its tile and the output's at the stored tile; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => stored0 (tile0 V c 0 t) (tile0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = stored0 (tile0 V c 0 t) (tile0 V c 1 t) := by dsimp only [dat0]

theorem before0_0 (c : Dev nD) (t : Fin cfg0.N) (d) : (dat0 V c).before 0 t d = tile0 V c 0 t :=
  before0_0_of V (dat0 V c) (A_eq0 V c 0) (after0_0 V c) t d
theorem before0_1 (c : Dev nD) (t : Fin cfg0.N) (d) : (dat0 V c).before 1 t d = tile0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_tiles c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Tiles

end
-- ==== Proof.Kernel.Steps.lean ====
/-
  The second pallas_call's body — one K step of the tiled product — run case by case, at any float instance.

  The grid is 8 × 4 × 4, the last coordinate k the contraction's. The body keeps a 1024 × 1024 accumulator in a scratch
  buffer across the four k steps of an output tile: at k = 0 it first stores zero into the accumulator; at every step it
  loads the accumulator, adds the product of the x tile (rounded to the table's format) with the table tile, and stores
  the sum back; at k = 3 it then copies the accumulator into the output tile's buffer. The two conditions are scalar
  tests on k alone, so a grid point is in one of three cases: first step (k = 0), middle step (k = 1, 2), last step
  (k = 3).

  For each case: on whole buffers — the inputs at given contents, the accumulator at given contents (at anything in the
  first case), the output buffer at anything in the last case and untouched otherwise — the body runs to the continuation
  with the inputs as they were and each buffer it stored into holding its stores, as a list of pieces that the run itself
  finds.
-/
import proofs.«144428_j52922587021428_1_alg».proof.Proof.Gen.Kernel.Launch
import proofs.«144428_j52922587021428_1_alg».proof.Proof.Gen.Kernel.Skeleton
import proofs.«144428_j52922587021428_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The first test: k = 0 (reset the accumulator). -/
abbrev first (i : grid1.Coords) : Prop := (Scalar.cmpi .ne (Scalar.extui (Scalar.cmpi .eq (BitVec.ofNat 32 (i 2).val) 0#32)) 0#32) = 1#1
/-- The second test: k = 3 (copy the accumulator out). -/
abbrev last (i : grid1.Coords) : Prop := k1_cond2 i = 1#1

/-- Over the grid, in closed form: the points are numbered with k fastest, so k is the point's number modulo 4. -/
theorem first_iff : ∀ t : Fin cfg1.N, first (grid1.coords t) ↔ t.val % 4 = 0 :=
  (by decide +kernel : ∀ t : Fin grid1.N, first (grid1.coords t) ↔ t.val % 4 = 0)
theorem last_iff : ∀ t : Fin cfg1.N, last (grid1.coords t) ↔ t.val % 4 = 3 :=
  (by decide +kernel : ∀ t : Fin grid1.N, last (grid1.coords t) ↔ t.val % 4 = 3)

/-! ## Where the output window is idle -/

/-- Off the last step the output window is idle (the body stores nothing into it) and is not written back. -/
theorem idle_out : ∀ t : Fin cfg1.N, ¬last (grid1.coords t) → cfg1.idle 2 (grid1.coords t) = true := by decide +kernel
theorem noflush_out : ∀ t : Fin cfg1.N, ¬last (grid1.coords t) → (cfg1.win 2).flush t = false := by decide +kernel
/-- At the last step it is live. -/
theorem live_out : ∀ t : Fin cfg1.N, last (grid1.coords t) → cfg1.idle 2 (grid1.coords t) = false := by decide +kernel
/-- The input windows are never idle. -/
theorem live_in0 : ∀ t : Fin cfg1.N, cfg1.idle 0 (grid1.coords t) = false := by decide +kernel
theorem live_in1 : ∀ t : Fin cfg1.N, cfg1.idle 1 (grid1.coords t) = false := by decide +kernel

/-! ## The body, case by case -/

set_option maxHeartbeats 1000000 in
/-- FIRST STEP (k = 0): the accumulator, found at anything, ends holding the pieces `LS` (zero stored, then the first
    partial product over it); the output buffer is not touched. -/
noncomputable def runFirst (c : Dev nD) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : first i) (hc1 : ¬last i)
    (x0 : Vec F S1024x1024 .f32) (x1 : Vec F S1024x1024 .bf16) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg6 fullShare d)
            ∗ (iprop(owns (c : Thread nD τ) arg3 fullShare x0 ∗ owns (c : Thread nD τ) arg4 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- MIDDLE STEP (k = 1, 2): the accumulator, found at `xs`, ends holding the pieces `LS` (the partial product added to
    what it held); the output buffer is not touched. -/
noncomputable def runMiddle (c : Dev nD) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : ¬last i)
    (x0 : Vec F S1024x1024 .f32) (x1 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare xs
            ∗ (iprop(owns (c : Thread nD τ) arg3 fullShare x0 ∗ owns (c : Thread nD τ) arg4 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- LAST STEP (k = 3): the accumulator, found at `xs`, ends holding the pieces `LS`, and the output buffer, found at
    anything, the pieces `LO` (the accumulator's final contents copied into it). -/
noncomputable def runLast (c : Dev nD) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i)
    (x0 : Vec F S1024x1024 .f32) (x1 : Vec F S1024x1024 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Steps

end
-- ==== Proof.Kernel.Accum.lean ====
/-
  The second pallas_call — the tiled product — as a pipelined region, at any float instance.

  Points are numbered with the contraction coordinate k fastest: point t has k = t mod 4, and the four points
  4s, 4s+1, 4s+2, 4s+3 share one output tile. Every point fetches its x tile and its table tile. The accumulator lives in
  a scratch buffer of the kernel's own and is carried from each point to the next; the output tile's buffer is stored
  only at k = 3, where the pipeline writes it back; at the other points the window is idle and its buffer is handed
  back as found.

  `accAt n` is the accumulator after point n, by recursion on n: at k = 0 the first step's result (from the point's
  two tiles alone), otherwise the middle or last step's result from the tiles and `accAt (n - 1)`. The region's
  invariant before point n is: at n = 0 the scoped buffers no window stages (the accumulator among them) at anything and
  the generator register; at n > 0 the accumulator at `accAt (n - 1)`, the other such buffers at anything, and the
  generator register. With that invariant each point's body obligation is the point's case run.
-/
import proofs.«144428_j52922587021428_1_alg».proof.Proof.Kernel.Steps

set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Steps

variable (V : (c : Dev nD) → (b : Ref sig .tc) → Buf (Elt F) ((c : Thread nD τ).loc b))

/-! ## The windows' tiles -/

/-- Window `w`'s tile at point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds its tile at every point, for any proof data over these arrays whose body
    leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The same for the table window. -/
theorem before1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-! ## The buffers the runs are stated over -/

/-- Each window's current staging buffer at point `t`, as the pipeline passes it to the body, and its wholeness. -/
abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1024 .f32 := win1_2.stage (cfg1.slots t 2)
abbrev hs2 (t : Fin cfg1.N) : (ms2 t).IsWhole := hstage1_2 ((cfg1.slots t 2).cast nbuf1_2)
/-- The accumulator: a whole scoped buffer of the kernel's own. -/
abbrev accM : Memref sig .tc .vmem S1024x1024 .f32 := Memref.whole cc1_scratch0
/-- Views through which the accumulator's and the output buffer's contents are stated (for the output, one of its two
    staging buffers: a cover makes the choice immaterial). -/
abbrev accV : View sig .tc .vmem S1024x1024 .f32 := accM.view
abbrev outV : View sig .tc .vmem S1024x1024 .f32 := (Memref.whole cc1_stg2_0 : Memref sig .tc .vmem S1024x1024 .f32).view

/-- The scoped buffers no window stages and the generator register, with the accumulator split out as a memref at some
    contents: what the first point's body is handed. -/
theorem scoped1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

/-- The other pallas_call's staging buffers, each whole at some contents: scoped buffers this region never touches. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The accumulator split out of what the first point is handed, -/
theorem PhiA1_split (c : Dev nD) :
    (Pipeline.ΦA spec1 c : sProp 𝕄) ⊢ iprop(iprop(others (F := F) c ∗ (∃ d, owns (c : Thread nD τ) accM fullShare d)) ∗ (∃ r, prngReg c r)) := by
  rw [scoped1_eq]; unfold others
  iintro ⟨⟨O1, O2, O3, O4, O5, O6, HS⟩, Hg⟩
  isplitl [O1 O2 O3 O4 O5 O6 HS]
  · isplitl [O1 O2 O3 O4 O5 O6]
    · isplitl [O1]; · iexact O1
      isplitl [O2]; · iexact O2
      isplitl [O3]; · iexact O3
      isplitl [O4]; · iexact O4
      isplitl [O5]; · iexact O5
      iexact O6
    · iexact HS
  · iexact Hg

/-- and put back. -/
theorem PhiA1_join (c : Dev nD) :
    iprop(iprop(others (F := F) c ∗ (∃ d, owns (c : Thread nD τ) accM fullShare d)) ∗ (∃ r, prngReg c r)) ⊢ (Pipeline.ΦA spec1 c : sProp 𝕄) := by
  rw [scoped1_eq]; unfold others
  iintro ⟨⟨⟨O1, O2, O3, O4, O5, O6⟩, HS⟩, Hg⟩
  isplitl [O1 O2 O3 O4 O5 O6 HS]
  · isplitl [O1]; · iexact O1
    isplitl [O2]; · iexact O2
    isplitl [O3]; · iexact O3
    isplitl [O4]; · iexact O4
    isplitl [O5]; · iexact O5
    isplitl [O6]; · iexact O6
    iexact HS
  · iexact Hg

/-! ## What each case leaves -/

/-- The first step's stores cover the accumulator. -/
theorem coverFirst (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : first i) (hc1 : ¬last i) (x0 : Vec F S1024x1024 .f32) (x1 : Vec F S1024x1024 .bf16) (y : S1024x1024.Idx) :
    ∃ pc ∈ (runFirst c i arg3 harg3 arg4 harg4 arg5 harg5 arg6 harg6 hc0 hc1 x0 x1).1, y ∈ pc.1.set :=
  View.cover_of_tiledL (runFirst c i arg3 harg3 arg4 harg4 arg5 harg5 arg6 harg6 hc0 hc1 x0 x1).1 S1024x1024.size (by sl_kernel_rfl) y

/-- The accumulator after a first step: its pieces read back. -/
def accFirst (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : first i) (hc1 : ¬last i) (x0 : Vec F S1024x1024 .f32) (x1 : Vec F S1024x1024 .bf16) : Vec F S1024x1024 .f32 :=
  accV.read (Elt F) (accV.writes (Elt F) accV.junk (runFirst c i arg3 harg3 arg4 harg4 arg5 harg5 arg6 harg6 hc0 hc1 x0 x1).1)

theorem coverMiddle (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : ¬last i) (x0 : Vec F S1024x1024 .f32) (x1 : Vec F S1024x1024 .bf16) (xs : Vec F S1024x1024 .f32) (y : S1024x1024.Idx) :
    ∃ pc ∈ (runMiddle c i arg3 harg3 arg4 harg4 arg5 harg5 arg6 harg6 hc0 hc1 x0 x1 xs).1, y ∈ pc.1.set :=
  View.cover_of_tiledL (runMiddle c i arg3 harg3 arg4 harg4 arg5 harg5 arg6 harg6 hc0 hc1 x0 x1 xs).1 S1024x1024.size (by sl_kernel_rfl) y

/-- The accumulator after a middle step. -/
def accMiddle (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : ¬last i) (x0 : Vec F S1024x1024 .f32) (x1 : Vec F S1024x1024 .bf16) (xs : Vec F S1024x1024 .f32) : Vec F S1024x1024 .f32 :=
  accV.read (Elt F) (accV.writes (Elt F) accV.junk (runMiddle c i arg3 harg3 arg4 harg4 arg5 harg5 arg6 harg6 hc0 hc1 x0 x1 xs).1)

theorem coverLast (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) (y : S1024x1024.Idx) :
    ∃ pc ∈ (runLast c i arg3 harg3 arg4 harg4 arg5 harg5 arg6 harg6 hc0 hc1 x0 x1 xs).2.1, y ∈ pc.1.set :=
  View.cover_of_tiledL (runLast c i arg3 harg3 arg4 harg4 arg5 harg5 arg6 harg6 hc0 hc1 x0 x1 xs).2.1 S1024x1024.size (by sl_kernel_rfl) y

/-- The accumulator after a last step. -/
def accLast (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) : Vec F S1024x1024 .f32 :=
  accV.read (Elt F) (accV.writes (Elt F) accV.junk (runLast c i arg3 harg3 arg4 harg4 arg5 harg5 arg6 harg6 hc0 hc1 x0 x1 xs).2.1)

theorem coverOut (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) (y : S1024x1024.Idx) :
    ∃ pc ∈ (runLast c i arg3 harg3 arg4 harg4 arg5 harg5 arg6 harg6 hc0 hc1 x0 x1 xs).1, y ∈ pc.1.set :=
  View.cover_of_tiledL (runLast c i arg3 harg3 arg4 harg4 arg5 harg5 arg6 harg6 hc0 hc1 x0 x1 xs).1 S1024x1024.size (by sl_kernel_rfl) y

/-- The output tile's buffer after a last step. -/
def outLast (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) : Vec F S1024x1024 .f32 :=
  outV.read (Elt F) (outV.writes (Elt F) outV.junk (runLast c i arg3 harg3 arg4 harg4 arg5 harg5 arg6 harg6 hc0 hc1 x0 x1 xs).1)

/-! ## The accumulator point by point -/

theorem not_last_of (t : Fin cfg1.N) (h1 : ¬t.val % 4 = 3) : ¬last (grid1.coords t) := fun h => h1 ((last_iff t).mp h)
theorem not_first_of (t : Fin cfg1.N) (h0 : ¬t.val % 4 = 0) : ¬first (grid1.coords t) := fun h => h0 ((first_iff t).mp h)

/-- The accumulator after point `n`: at k = 0 the first step's result, otherwise the step's result over what point
    `n - 1` left. -/
def accAt (c : Dev nD) : (n : ℕ) → n < cfg1.N → Vec F S1024x1024 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((first_iff ⟨0, hn⟩).mpr (Nat.zero_mod _)) (not_last_of ⟨0, hn⟩ (by (try dsimp only); omega)) (tile1 V c 0 ⟨0, hn⟩) (tile1 V c 1 ⟨0, hn⟩)
  | n + 1, hn =>
    if h0 : (n + 1) % 4 = 0 then
      accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((first_iff ⟨n + 1, hn⟩).mpr h0) (not_last_of ⟨n + 1, hn⟩ (by (try dsimp only); omega)) (tile1 V c 0 ⟨n + 1, hn⟩) (tile1 V c 1 ⟨n + 1, hn⟩)
    else if h1 : (n + 1) % 4 = 3 then
      accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (not_first_of ⟨n + 1, hn⟩ h0) ((last_iff ⟨n + 1, hn⟩).mpr h1) (tile1 V c 0 ⟨n + 1, hn⟩) (tile1 V c 1 ⟨n + 1, hn⟩) (accAt c n (Nat.lt_of_succ_lt hn))
    else
      accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (not_first_of ⟨n + 1, hn⟩ h0) (not_last_of ⟨n + 1, hn⟩ h1) (tile1 V c 0 ⟨n + 1, hn⟩) (tile1 V c 1 ⟨n + 1, hn⟩) (accAt c n (Nat.lt_of_succ_lt hn))

theorem pred_lt (t : Fin cfg1.N) : t.val - 1 < cfg1.N := Nat.lt_of_le_of_lt (Nat.sub_le _ _) t.isLt

theorem accAt_first (c : Dev nD) (t : Fin cfg1.N) (h0 : t.val % 4 = 0) (h1 : ¬t.val % 4 = 3) :
    accAt V c t.val t.isLt = accFirst c (grid1.coords t) (ms0 t) (hs0 t) (ms1 t) (hs1 t) (ms2 t) (hs2 t) accM (Memref.isWhole_whole _) ((first_iff t).mpr h0) (not_last_of t h1) (tile1 V c 0 t) (tile1 V c 1 t) := by
  obtain ⟨n, hn⟩ := t
  cases n with
  | zero => exact rfl
  | succ n => exact (dif_pos h0).trans rfl

theorem accAt_middle (c : Dev nD) (t : Fin cfg1.N) (h0 : ¬t.val % 4 = 0) (h1 : ¬t.val % 4 = 3) :
    accAt V c t.val t.isLt = accMiddle c (grid1.coords t) (ms0 t) (hs0 t) (ms1 t) (hs1 t) (ms2 t) (hs2 t) accM (Memref.isWhole_whole _) (not_first_of t h0) (not_last_of t h1) (tile1 V c 0 t) (tile1 V c 1 t) (accAt V c (t.val - 1) (pred_lt t)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = accLast c (grid1.coords t) (ms0 t) (hs0 t) (ms1 t) (hs1 t) (ms2 t) (hs2 t) accM (Memref.isWhole_whole _) (not_first_of t h0) ((last_iff t).mpr h1) (tile1 V c 0 t) (tile1 V c 1 t) (accAt V c (t.val - 1) (pred_lt t)) := by
  obtain ⟨n, hn⟩ := t
  cases n with
  | zero => exact (by exfalso; (try dsimp only at h0); exact absurd (Nat.zero_mod _) h0)
  | succ n => exact (dif_neg h0).trans ((dif_pos h1).trans rfl)

/-- The output tile's buffer after point `n`: at k = 3 the last step's copy of the accumulator. (At the other points the
    window is idle and this value is never consulted.) -/
def outAt (c : Dev nD) (n : ℕ) (hn : n < cfg1.N) : Vec F S1024x1024 .f32 :=
  if h1 : n % 4 = 3 then
    outLast c (grid1.coords ⟨n, hn⟩) (ms0 ⟨n, hn⟩) (hs0 ⟨n, hn⟩) (ms1 ⟨n, hn⟩) (hs1 ⟨n, hn⟩) (ms2 ⟨n, hn⟩) (hs2 ⟨n, hn⟩) accM (Memref.isWhole_whole _) (not_first_of ⟨n, hn⟩ (by (try dsimp only); omega)) ((last_iff ⟨n, hn⟩).mpr h1) (tile1 V c 0 ⟨n, hn⟩) (tile1 V c 1 ⟨n, hn⟩) (accAt V c (n - 1) (Nat.lt_of_le_of_lt (Nat.sub_le _ _) hn))
  else accAt V c n hn

theorem outAt_last (c : Dev nD) (t : Fin cfg1.N) (h0 : ¬t.val % 4 = 0) (h1 : t.val % 4 = 3) :
    outAt V c t.val t.isLt = outLast c (grid1.coords t) (ms0 t) (hs0 t) (ms1 t) (hs1 t) (ms2 t) (hs2 t) accM (Memref.isWhole_whole _) (not_first_of t h0) ((last_iff t).mpr h1) (tile1 V c 0 t) (tile1 V c 1 t) (accAt V c (t.val - 1) (pred_lt t)) := by
  unfold outAt; exact (dif_pos h1).trans rfl

/-! ## The invariant -/

/-- Before point `n`: at the start what the launch hands the region; afterwards the accumulator at what point `n - 1`
    left, the other pallas_call's staging buffers at anything, the generator register at some state. -/
def PhiS (c : Dev nD) : (n : ℕ) → n ≤ cfg1.N → sProp 𝕄
  | 0, _ => Pipeline.ΦA spec1 c
  | n + 1, hn => iprop(iprop(others (F := F) c ∗ owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others (F := F) c ∗ owns (c : Thread nD τ) accM fullShare (accAt V c n hn)) ∗ (∃ r, prngReg c r)) := rfl

theorem PhiS_pos (c : Dev nD) (n : ℕ) (h : n ≤ cfg1.N) (hz : n ≠ 0) :
    PhiS V c n h = iprop(iprop(others (F := F) c ∗ owns (c : Thread nD τ) accM fullShare (accAt V c (n - 1) (by omega))) ∗ (∃ r, prngReg c r)) := by
  cases n with
  | zero => exact absurd rfl hz
  | succ n => rfl

/-! ## The pipeline's proof data -/

/-- The proof data of this pipeline on core `c`: the arrays as the region finds them; after the body each input's buffer at
    its tile and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = outAt V c t.val t.isLt := by dsimp only [dat1]

theorem before1_0 (c : Dev nD) (t : Fin cfg1.N) (d) : (dat1 V c).before 0 t d = tile1 V c 0 t :=
  before1_0_of V (dat1 V c) (A_eq1 V c 0) (after1_0 V c) t d
theorem before1_1 (c : Dev nD) (t : Fin cfg1.N) (d) : (dat1 V c).before 1 t d = tile1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves_in0 (c : Dev nD) (t : Fin cfg1.N) :
    (dat1 V c).leavesExact 0 t = owns (c : Thread nD τ) (ms0 t) fullShare (tile1 V c 0 t) := by
  unfold Dat.leavesExact; rw [live_in0 t, after1_0]
theorem leaves_in1 (c : Dev nD) (t : Fin cfg1.N) :
    (dat1 V c).leavesExact 1 t = owns (c : Thread nD τ) (ms1 t) fullShare (tile1 V c 1 t) := by
  unfold Dat.leavesExact; rw [live_in1 t, after1_1]

set_option maxHeartbeats 4800000 in
/-- The body at any point. The inputs' buffers hold their tiles; the point's number modulo 4 says which case it is in; the
    invariant hands the body the accumulator at what the point before left (at anything at the very first point) and takes it
    back at this point's contents; off the last step the output buffer is handed back as found, at the last step it is left
    at the accumulator's copy. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves_in0, leaves_in1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (idle_out t (not_last_of t h1)) (noflush_out t (not_last_of t h1))]
    rw [accAt_first V c t h0 h1]
    unfold accFirst; (try dsimp only)
    by_cases hz : t.val = 0
    · rw [PhiS_castSucc V c t, PhiS_zero V c _ _ hz]
      refine (sep_mono (PhiA1_split c) .rfl).trans ?_
      iintro ⟨⟨⟨Hoth, HS⟩, Hg⟩, Ho, ⟨%d0, H0⟩, ⟨%d1, H1⟩, ⟨%d2, H2⟩⟩
      iapply ((runFirst c (grid1.coords t) _ _ _ _ _ _ _ _ ((first_iff t).mpr h0) (not_last_of t h1) (tile1 V c 0 t) (tile1 V c 1 t)).2 Set.univ _)
      isplitl [H0]; · iexact H0
      isplitl [H1]; · iexact H1
      isplitl [HS]; · iexact HS
      iintro ⟨H0, H1, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Hoth, HS⟩, Hg⟩, Ho, ⟨%d0, H0⟩, ⟨%d1, H1⟩, ⟨%d2, H2⟩⟩
      iapply ((runFirst c (grid1.coords t) _ _ _ _ _ _ _ _ ((first_iff t).mpr h0) (not_last_of t h1) (tile1 V c 0 t) (tile1 V c 1 t)).2 Set.univ _)
      isplitl [H0]; · iexact H0
      isplitl [H1]; · iexact H1
      isplitl [HS]; · iexists _; iexact HS
      iintro ⟨H0, H1, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms2 t) fullShare ((dat1 V c).after 2 t) from by
        unfold Dat.leavesExact; rw [live_out t ((last_iff t).mpr h1)], after1_2]
      rw [accAt_last V c t h0 h1, outAt_last V c t h0 h1]
      unfold accLast outLast; (try dsimp only)
      rw [PhiS_castSucc V c t, PhiS_pos V c _ _ hz]
      iintro ⟨⟨⟨Hoth, HS⟩, Hg⟩, Ho, ⟨%d0, H0⟩, ⟨%d1, H1⟩, ⟨%d2, H2⟩⟩
      iapply ((runLast c (grid1.coords t) _ _ _ _ _ _ _ _ (not_first_of t h0) ((last_iff t).mpr h1) (tile1 V c 0 t) (tile1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c _ _ _ _ _ _ _ _ _ _ _ _ _ _)
    · rw [Dat.leavesExact_idle (dat1 V c) 2 t (idle_out t (not_last_of t h1)) (noflush_out t (not_last_of t h1))]
      rw [accAt_middle V c t h0 h1]
      unfold accMiddle; (try dsimp only)
      rw [PhiS_castSucc V c t, PhiS_pos V c _ _ hz]
      iintro ⟨⟨⟨Hoth, HS⟩, Hg⟩, Ho, ⟨%d0, H0⟩, ⟨%d1, H1⟩, ⟨%d2, H2⟩⟩
      iapply ((runMiddle c (grid1.coords t) _ _ _ _ _ _ _ _ (not_first_of t h0) (not_last_of t h1) (tile1 V c 0 t) (tile1 V c 1 t) _).2 Set.univ _)
      isplitl [H0]; · iexact H0
      isplitl [H1]; · iexact H1
      isplitl [HS]; · iexact HS
      iintro ⟨H0, H1, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverMiddle c _ _ _ _ _ _ _ _ _ _ _ _ _ _)
        iexact Hg
      isplitl [Ho]; · iexact Ho
      isplitl [H0]; · iexact H0
      isplitl [H1]; · iexact H1
      iexists _; iexact H2

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA1_join c)
  iintro ⟨⟨Hoth, HS⟩, Hg⟩
  isplitl [Hoth HS]
  · isplitl [Hoth]; · iexact Hoth
    iexists _; iexact HS
  iexact Hg

end Cert.Kernel.Accum

end
-- ==== Proof.Kernel.Whole.lean ====
/-
  The whole program as a run: one host operation (the mask's 0/1 image), then the two pallas_calls, at any float instance.

  The contents of the core's unscoped buffers are followed through @main: at launch the memory; after the host operation
  that memory with the 0/1 image written; after the first pallas_call the same with the table's array at what the
  pipeline's write-backs leave; after the second with the result's array at what its write-backs leave. Each pallas_call is
  a segment entered from "every unscoped buffer at the contents before it" and left at "every unscoped buffer at the
  contents after it", with the generator register and the core owing nothing riding along; inside, the first region keeps
  the scoped buffers it does not stage untouched, and the second carries its accumulator among them.

  The run theorem says: every weakly fair execution of @main terminates, nothing faulting, and at the end every unscoped
  buffer holds the last of those contents. The frame claim (the arguments end unchanged) and the result's value are both
  read off it.
-/
import proofs.«144428_j52922587021428_1_alg».proof.Proof.Kernel.Tiles
import proofs.«144428_j52922587021428_1_alg».proof.Proof.Kernel.Accum

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Tiles Cert.Kernel.Accum

variable (m : (ℓ : Loc nD τ sig) → Buf (Elt F) ℓ) (ρ : Dev nD → PrngReg)

/-! ## The buffers' contents at each boundary of @main -/

/-- At launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first pallas_call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W2`, left at `W3`. The invariant starts as the scoped
    rest and the generator register and, after the last point, gives them back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## The arguments end as launched -/

theorem W1_of_not_written (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- x: read by the second region through an input window, bypassing the first. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

/-- W: read by the first region through an input window, bypassing the second. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of_not_written m ρ c main_arg1 (by decide)
    _ = m ((c : Thread nD τ).loc main_arg1) := rfl

/-- The mask: read only by the host operation. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

/-- THE FRAME: every weakly fair execution of @main terminates, nothing faulting, with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Whole

end
-- ==== Proof.KernelIdeal.Tiles.lean ====
/-
  The first pallas_call — the weight table's tiles — as a pipelined region, at any float instance.

  The grid is 4 × 4. At point (i, j) the pipeline fetches tile (j, i) of the weight matrix and tile (j, i) of the mask's
  0/1 image (the index maps swap the two block coordinates), the body multiplies the two tiles entry by entry, takes
  tanh, transposes the tile and stores it, rounded to the table's float format, as tile (i, j) of the table. Every
  point fetches both inputs and writes its output tile back.

  What is proved here, for any contents V of the core's buffers when the region is entered: each input window's
  staging buffer holds its tile at every point; the body, run on whole staging buffers, leaves the inputs as they were
  and the output buffer at the one stored tile (the body's single store covers the buffer); hence the obligation the
  pipeline asks of the body at every point. The body also loads the output buffer before storing into it; what it
  reads there is never used.
-/
import proofs.«144428_j52922587021428_1_alg».proof.Proof.Gen.KernelIdeal.Launch
import proofs.«144428_j52922587021428_1_alg».proof.Proof.Gen.KernelIdeal.Skeleton
import proofs.«144428_j52922587021428_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its tile at every point, for any proof data over these arrays whose
    body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The same for the mask window. -/
theorem before0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## What the body stores -/

/-- The whole 1024 × 1024 buffer as a rectangle: every access of the body goes through it. -/
abbrev whole0 : Rect S1024x1024 := Rect.unit (s := S1024x1024) ![0, 0] S1024x1024.size inb_S1024x1024_S1024x1024_0_0

/-- The output buffer after the body, from the two input tiles: the one store, of the transposed tanh tile. -/
def stored0 (x0 : Vec F S1024x1024 .f32) (x1 : Vec F S1024x1024 .f32) : Vec F S1024x1024 .bf16 :=
  View.canon [⟨whole0, k0_pay1 (View.ld x0 whole0) (View.ld x1 whole0)⟩]

/-- The one store covers the buffer. -/
theorem cover0 (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

/-! ## The body's triple -/

set_option maxHeartbeats 1000000 in
/-- The body on whole staging buffers — the inputs' at contents `x0`, `x1`, the output's at anything — runs to the
    continuation with the inputs as they were and the output at `stored0 x0 x1`. -/
theorem sound_tiles (c : Dev nD) (E : Set ℕ) (i : grid0.Coords)
    (arg2 : Memref sig .tc .vmem S1024x1024 .f32) (harg2 : arg2.IsWhole) (arg3 : Memref sig .tc .vmem S1024x1024 .f32) (harg3 : arg3.IsWhole)
    (arg4 : Memref sig .tc .vmem S1024x1024 .bf16) (harg4 : arg4.IsWhole)
    (x0 : Vec F S1024x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored0 x0 x1)) -∗ K ⟨⟩))
      ⊢ wp frame (wpE (defs₀ (F := F)) Variants.none c none) E (cc0__preprocess_kernel i arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of this pipeline on core `c`: the arrays as the region finds them; after the body each input's
    buffer at its tile and the output's at the stored tile; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => stored0 (tile0 V c 0 t) (tile0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = stored0 (tile0 V c 0 t) (tile0 V c 1 t) := by dsimp only [dat0]

theorem before0_0 (c : Dev nD) (t : Fin cfg0.N) (d) : (dat0 V c).before 0 t d = tile0 V c 0 t :=
  before0_0_of V (dat0 V c) (A_eq0 V c 0) (after0_0 V c) t d
theorem before0_1 (c : Dev nD) (t : Fin cfg0.N) (d) : (dat0 V c).before 1 t d = tile0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_tiles c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Tiles

end
-- ==== Proof.KernelIdeal.Steps.lean ====
/-
  The second pallas_call's body — one K step of the tiled product — run case by case, at any float instance.

  The grid is 8 × 4 × 4, the last coordinate k the contraction's. The body keeps a 1024 × 1024 accumulator in a scratch
  buffer across the four k steps of an output tile: at k = 0 it first stores zero into the accumulator; at every step it
  loads the accumulator, adds the product of the x tile (rounded to the table's format) with the table tile, and stores
  the sum back; at k = 3 it then copies the accumulator into the output tile's buffer. The two conditions are scalar
  tests on k alone, so a grid point is in one of three cases: first step (k = 0), middle step (k = 1, 2), last step
  (k = 3).

  For each case: on whole buffers — the inputs at given contents, the accumulator at given contents (at anything in the
  first case), the output buffer at anything in the last case and untouched otherwise — the body runs to the continuation
  with the inputs as they were and each buffer it stored into holding its stores, as a list of pieces that the run itself
  finds.
-/
import proofs.«144428_j52922587021428_1_alg».proof.Proof.Gen.KernelIdeal.Launch
import proofs.«144428_j52922587021428_1_alg».proof.Proof.Gen.KernelIdeal.Skeleton
import proofs.«144428_j52922587021428_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The first test: k = 0 (reset the accumulator). -/
abbrev first (i : grid1.Coords) : Prop := (Scalar.cmpi .ne (Scalar.extui (Scalar.cmpi .eq (BitVec.ofNat 32 (i 2).val) 0#32)) 0#32) = 1#1
/-- The second test: k = 3 (copy the accumulator out). -/
abbrev last (i : grid1.Coords) : Prop := k1_cond2 i = 1#1

/-- Over the grid, in closed form: the points are numbered with k fastest, so k is the point's number modulo 4. -/
theorem first_iff : ∀ t : Fin cfg1.N, first (grid1.coords t) ↔ t.val % 4 = 0 :=
  (by decide +kernel : ∀ t : Fin grid1.N, first (grid1.coords t) ↔ t.val % 4 = 0)
theorem last_iff : ∀ t : Fin cfg1.N, last (grid1.coords t) ↔ t.val % 4 = 3 :=
  (by decide +kernel : ∀ t : Fin grid1.N, last (grid1.coords t) ↔ t.val % 4 = 3)

/-! ## Where the output window is idle -/

/-- Off the last step the output window is idle (the body stores nothing into it) and is not written back. -/
theorem idle_out : ∀ t : Fin cfg1.N, ¬last (grid1.coords t) → cfg1.idle 2 (grid1.coords t) = true := by decide +kernel
theorem noflush_out : ∀ t : Fin cfg1.N, ¬last (grid1.coords t) → (cfg1.win 2).flush t = false := by decide +kernel
/-- At the last step it is live. -/
theorem live_out : ∀ t : Fin cfg1.N, last (grid1.coords t) → cfg1.idle 2 (grid1.coords t) = false := by decide +kernel
/-- The input windows are never idle. -/
theorem live_in0 : ∀ t : Fin cfg1.N, cfg1.idle 0 (grid1.coords t) = false := by decide +kernel
theorem live_in1 : ∀ t : Fin cfg1.N, cfg1.idle 1 (grid1.coords t) = false := by decide +kernel

/-! ## The body, case by case -/

set_option maxHeartbeats 1000000 in
/-- FIRST STEP (k = 0): the accumulator, found at anything, ends holding the pieces `LS` (zero stored, then the first
    partial product over it); the output buffer is not touched. -/
noncomputable def runFirst (c : Dev nD) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : first i) (hc1 : ¬last i)
    (x0 : Vec F S1024x1024 .f32) (x1 : Vec F S1024x1024 .bf16) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg6 fullShare d)
            ∗ (iprop(owns (c : Thread nD τ) arg3 fullShare x0 ∗ owns (c : Thread nD τ) arg4 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- MIDDLE STEP (k = 1, 2): the accumulator, found at `xs`, ends holding the pieces `LS` (the partial product added to
    what it held); the output buffer is not touched. -/
noncomputable def runMiddle (c : Dev nD) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : ¬last i)
    (x0 : Vec F S1024x1024 .f32) (x1 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare xs
            ∗ (iprop(owns (c : Thread nD τ) arg3 fullShare x0 ∗ owns (c : Thread nD τ) arg4 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- LAST STEP (k = 3): the accumulator, found at `xs`, ends holding the pieces `LS`, and the output buffer, found at
    anything, the pieces `LO` (the accumulator's final contents copied into it). -/
noncomputable def runLast (c : Dev nD) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i)
    (x0 : Vec F S1024x1024 .f32) (x1 : Vec F S1024x1024 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Steps

end
-- ==== Proof.KernelIdeal.Accum.lean ====
/-
  The second pallas_call — the tiled product — as a pipelined region, at any float instance.

  Points are numbered with the contraction coordinate k fastest: point t has k = t mod 4, and the four points
  4s, 4s+1, 4s+2, 4s+3 share one output tile. Every point fetches its x tile and its table tile. The accumulator lives in
  a scratch buffer of the kernel's own and is carried from each point to the next; the output tile's buffer is stored
  only at k = 3, where the pipeline writes it back; at the other points the window is idle and its buffer is handed
  back as found.

  `accAt n` is the accumulator after point n, by recursion on n: at k = 0 the first step's result (from the point's
  two tiles alone), otherwise the middle or last step's result from the tiles and `accAt (n - 1)`. The region's
  invariant before point n is: at n = 0 the scoped buffers no window stages (the accumulator among them) at anything and
  the generator register; at n > 0 the accumulator at `accAt (n - 1)`, the other such buffers at anything, and the
  generator register. With that invariant each point's body obligation is the point's case run.
-/
import proofs.«144428_j52922587021428_1_alg».proof.Proof.KernelIdeal.Steps

set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Steps

variable (V : (c : Dev nD) → (b : Ref sig .tc) → Buf (Elt F) ((c : Thread nD τ).loc b))

/-! ## The windows' tiles -/

/-- Window `w`'s tile at point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds its tile at every point, for any proof data over these arrays whose body
    leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The same for the table window. -/
theorem before1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-! ## The buffers the runs are stated over -/

/-- Each window's current staging buffer at point `t`, as the pipeline passes it to the body, and its wholeness. -/
abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1024 .f32 := win1_2.stage (cfg1.slots t 2)
abbrev hs2 (t : Fin cfg1.N) : (ms2 t).IsWhole := hstage1_2 ((cfg1.slots t 2).cast nbuf1_2)
/-- The accumulator: a whole scoped buffer of the kernel's own. -/
abbrev accM : Memref sig .tc .vmem S1024x1024 .f32 := Memref.whole cc1_scratch0
/-- Views through which the accumulator's and the output buffer's contents are stated (for the output, one of its two
    staging buffers: a cover makes the choice immaterial). -/
abbrev accV : View sig .tc .vmem S1024x1024 .f32 := accM.view
abbrev outV : View sig .tc .vmem S1024x1024 .f32 := (Memref.whole cc1_stg2_0 : Memref sig .tc .vmem S1024x1024 .f32).view

/-- The scoped buffers no window stages and the generator register, with the accumulator split out as a memref at some
    contents: what the first point's body is handed. -/
theorem scoped1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

/-- The other pallas_call's staging buffers, each whole at some contents: scoped buffers this region never touches. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The accumulator split out of what the first point is handed, -/
theorem PhiA1_split (c : Dev nD) :
    (Pipeline.ΦA spec1 c : sProp 𝕄) ⊢ iprop(iprop(others (F := F) c ∗ (∃ d, owns (c : Thread nD τ) accM fullShare d)) ∗ (∃ r, prngReg c r)) := by
  rw [scoped1_eq]; unfold others
  iintro ⟨⟨O1, O2, O3, O4, O5, O6, HS⟩, Hg⟩
  isplitl [O1 O2 O3 O4 O5 O6 HS]
  · isplitl [O1 O2 O3 O4 O5 O6]
    · isplitl [O1]; · iexact O1
      isplitl [O2]; · iexact O2
      isplitl [O3]; · iexact O3
      isplitl [O4]; · iexact O4
      isplitl [O5]; · iexact O5
      iexact O6
    · iexact HS
  · iexact Hg

/-- and put back. -/
theorem PhiA1_join (c : Dev nD) :
    iprop(iprop(others (F := F) c ∗ (∃ d, owns (c : Thread nD τ) accM fullShare d)) ∗ (∃ r, prngReg c r)) ⊢ (Pipeline.ΦA spec1 c : sProp 𝕄) := by
  rw [scoped1_eq]; unfold others
  iintro ⟨⟨⟨O1, O2, O3, O4, O5, O6⟩, HS⟩, Hg⟩
  isplitl [O1 O2 O3 O4 O5 O6 HS]
  · isplitl [O1]; · iexact O1
    isplitl [O2]; · iexact O2
    isplitl [O3]; · iexact O3
    isplitl [O4]; · iexact O4
    isplitl [O5]; · iexact O5
    isplitl [O6]; · iexact O6
    iexact HS
  · iexact Hg

/-! ## What each case leaves -/

/-- The first step's stores cover the accumulator. -/
theorem coverFirst (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : first i) (hc1 : ¬last i) (x0 : Vec F S1024x1024 .f32) (x1 : Vec F S1024x1024 .bf16) (y : S1024x1024.Idx) :
    ∃ pc ∈ (runFirst c i arg3 harg3 arg4 harg4 arg5 harg5 arg6 harg6 hc0 hc1 x0 x1).1, y ∈ pc.1.set :=
  View.cover_of_tiledL (runFirst c i arg3 harg3 arg4 harg4 arg5 harg5 arg6 harg6 hc0 hc1 x0 x1).1 S1024x1024.size (by sl_kernel_rfl) y

/-- The accumulator after a first step: its pieces read back. -/
def accFirst (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : first i) (hc1 : ¬last i) (x0 : Vec F S1024x1024 .f32) (x1 : Vec F S1024x1024 .bf16) : Vec F S1024x1024 .f32 :=
  accV.read (Elt F) (accV.writes (Elt F) accV.junk (runFirst c i arg3 harg3 arg4 harg4 arg5 harg5 arg6 harg6 hc0 hc1 x0 x1).1)

theorem coverMiddle (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : ¬last i) (x0 : Vec F S1024x1024 .f32) (x1 : Vec F S1024x1024 .bf16) (xs : Vec F S1024x1024 .f32) (y : S1024x1024.Idx) :
    ∃ pc ∈ (runMiddle c i arg3 harg3 arg4 harg4 arg5 harg5 arg6 harg6 hc0 hc1 x0 x1 xs).1, y ∈ pc.1.set :=
  View.cover_of_tiledL (runMiddle c i arg3 harg3 arg4 harg4 arg5 harg5 arg6 harg6 hc0 hc1 x0 x1 xs).1 S1024x1024.size (by sl_kernel_rfl) y

/-- The accumulator after a middle step. -/
def accMiddle (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : ¬last i) (x0 : Vec F S1024x1024 .f32) (x1 : Vec F S1024x1024 .bf16) (xs : Vec F S1024x1024 .f32) : Vec F S1024x1024 .f32 :=
  accV.read (Elt F) (accV.writes (Elt F) accV.junk (runMiddle c i arg3 harg3 arg4 harg4 arg5 harg5 arg6 harg6 hc0 hc1 x0 x1 xs).1)

theorem coverLast (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) (y : S1024x1024.Idx) :
    ∃ pc ∈ (runLast c i arg3 harg3 arg4 harg4 arg5 harg5 arg6 harg6 hc0 hc1 x0 x1 xs).2.1, y ∈ pc.1.set :=
  View.cover_of_tiledL (runLast c i arg3 harg3 arg4 harg4 arg5 harg5 arg6 harg6 hc0 hc1 x0 x1 xs).2.1 S1024x1024.size (by sl_kernel_rfl) y

/-- The accumulator after a last step. -/
def accLast (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) : Vec F S1024x1024 .f32 :=
  accV.read (Elt F) (accV.writes (Elt F) accV.junk (runLast c i arg3 harg3 arg4 harg4 arg5 harg5 arg6 harg6 hc0 hc1 x0 x1 xs).2.1)

theorem coverOut (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) (y : S1024x1024.Idx) :
    ∃ pc ∈ (runLast c i arg3 harg3 arg4 harg4 arg5 harg5 arg6 harg6 hc0 hc1 x0 x1 xs).1, y ∈ pc.1.set :=
  View.cover_of_tiledL (runLast c i arg3 harg3 arg4 harg4 arg5 harg5 arg6 harg6 hc0 hc1 x0 x1 xs).1 S1024x1024.size (by sl_kernel_rfl) y

/-- The output tile's buffer after a last step. -/
def outLast (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) : Vec F S1024x1024 .f32 :=
  outV.read (Elt F) (outV.writes (Elt F) outV.junk (runLast c i arg3 harg3 arg4 harg4 arg5 harg5 arg6 harg6 hc0 hc1 x0 x1 xs).1)

/-! ## The accumulator point by point -/

theorem not_last_of (t : Fin cfg1.N) (h1 : ¬t.val % 4 = 3) : ¬last (grid1.coords t) := fun h => h1 ((last_iff t).mp h)
theorem not_first_of (t : Fin cfg1.N) (h0 : ¬t.val % 4 = 0) : ¬first (grid1.coords t) := fun h => h0 ((first_iff t).mp h)

/-- The accumulator after point `n`: at k = 0 the first step's result, otherwise the step's result over what point
    `n - 1` left. -/
def accAt (c : Dev nD) : (n : ℕ) → n < cfg1.N → Vec F S1024x1024 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((first_iff ⟨0, hn⟩).mpr (Nat.zero_mod _)) (not_last_of ⟨0, hn⟩ (by (try dsimp only); omega)) (tile1 V c 0 ⟨0, hn⟩) (tile1 V c 1 ⟨0, hn⟩)
  | n + 1, hn =>
    if h0 : (n + 1) % 4 = 0 then
      accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((first_iff ⟨n + 1, hn⟩).mpr h0) (not_last_of ⟨n + 1, hn⟩ (by (try dsimp only); omega)) (tile1 V c 0 ⟨n + 1, hn⟩) (tile1 V c 1 ⟨n + 1, hn⟩)
    else if h1 : (n + 1) % 4 = 3 then
      accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (not_first_of ⟨n + 1, hn⟩ h0) ((last_iff ⟨n + 1, hn⟩).mpr h1) (tile1 V c 0 ⟨n + 1, hn⟩) (tile1 V c 1 ⟨n + 1, hn⟩) (accAt c n (Nat.lt_of_succ_lt hn))
    else
      accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (not_first_of ⟨n + 1, hn⟩ h0) (not_last_of ⟨n + 1, hn⟩ h1) (tile1 V c 0 ⟨n + 1, hn⟩) (tile1 V c 1 ⟨n + 1, hn⟩) (accAt c n (Nat.lt_of_succ_lt hn))

theorem pred_lt (t : Fin cfg1.N) : t.val - 1 < cfg1.N := Nat.lt_of_le_of_lt (Nat.sub_le _ _) t.isLt

theorem accAt_first (c : Dev nD) (t : Fin cfg1.N) (h0 : t.val % 4 = 0) (h1 : ¬t.val % 4 = 3) :
    accAt V c t.val t.isLt = accFirst c (grid1.coords t) (ms0 t) (hs0 t) (ms1 t) (hs1 t) (ms2 t) (hs2 t) accM (Memref.isWhole_whole _) ((first_iff t).mpr h0) (not_last_of t h1) (tile1 V c 0 t) (tile1 V c 1 t) := by
  obtain ⟨n, hn⟩ := t
  cases n with
  | zero => exact rfl
  | succ n => exact (dif_pos h0).trans rfl

theorem accAt_middle (c : Dev nD) (t : Fin cfg1.N) (h0 : ¬t.val % 4 = 0) (h1 : ¬t.val % 4 = 3) :
    accAt V c t.val t.isLt = accMiddle c (grid1.coords t) (ms0 t) (hs0 t) (ms1 t) (hs1 t) (ms2 t) (hs2 t) accM (Memref.isWhole_whole _) (not_first_of t h0) (not_last_of t h1) (tile1 V c 0 t) (tile1 V c 1 t) (accAt V c (t.val - 1) (pred_lt t)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = accLast c (grid1.coords t) (ms0 t) (hs0 t) (ms1 t) (hs1 t) (ms2 t) (hs2 t) accM (Memref.isWhole_whole _) (not_first_of t h0) ((last_iff t).mpr h1) (tile1 V c 0 t) (tile1 V c 1 t) (accAt V c (t.val - 1) (pred_lt t)) := by
  obtain ⟨n, hn⟩ := t
  cases n with
  | zero => exact (by exfalso; (try dsimp only at h0); exact absurd (Nat.zero_mod _) h0)
  | succ n => exact (dif_neg h0).trans ((dif_pos h1).trans rfl)

/-- The output tile's buffer after point `n`: at k = 3 the last step's copy of the accumulator. (At the other points the
    window is idle and this value is never consulted.) -/
def outAt (c : Dev nD) (n : ℕ) (hn : n < cfg1.N) : Vec F S1024x1024 .f32 :=
  if h1 : n % 4 = 3 then
    outLast c (grid1.coords ⟨n, hn⟩) (ms0 ⟨n, hn⟩) (hs0 ⟨n, hn⟩) (ms1 ⟨n, hn⟩) (hs1 ⟨n, hn⟩) (ms2 ⟨n, hn⟩) (hs2 ⟨n, hn⟩) accM (Memref.isWhole_whole _) (not_first_of ⟨n, hn⟩ (by (try dsimp only); omega)) ((last_iff ⟨n, hn⟩).mpr h1) (tile1 V c 0 ⟨n, hn⟩) (tile1 V c 1 ⟨n, hn⟩) (accAt V c (n - 1) (Nat.lt_of_le_of_lt (Nat.sub_le _ _) hn))
  else accAt V c n hn

theorem outAt_last (c : Dev nD) (t : Fin cfg1.N) (h0 : ¬t.val % 4 = 0) (h1 : t.val % 4 = 3) :
    outAt V c t.val t.isLt = outLast c (grid1.coords t) (ms0 t) (hs0 t) (ms1 t) (hs1 t) (ms2 t) (hs2 t) accM (Memref.isWhole_whole _) (not_first_of t h0) ((last_iff t).mpr h1) (tile1 V c 0 t) (tile1 V c 1 t) (accAt V c (t.val - 1) (pred_lt t)) := by
  unfold outAt; exact (dif_pos h1).trans rfl

/-! ## The invariant -/

/-- Before point `n`: at the start what the launch hands the region; afterwards the accumulator at what point `n - 1`
    left, the other pallas_call's staging buffers at anything, the generator register at some state. -/
def PhiS (c : Dev nD) : (n : ℕ) → n ≤ cfg1.N → sProp 𝕄
  | 0, _ => Pipeline.ΦA spec1 c
  | n + 1, hn => iprop(iprop(others (F := F) c ∗ owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others (F := F) c ∗ owns (c : Thread nD τ) accM fullShare (accAt V c n hn)) ∗ (∃ r, prngReg c r)) := rfl

theorem PhiS_pos (c : Dev nD) (n : ℕ) (h : n ≤ cfg1.N) (hz : n ≠ 0) :
    PhiS V c n h = iprop(iprop(others (F := F) c ∗ owns (c : Thread nD τ) accM fullShare (accAt V c (n - 1) (by omega))) ∗ (∃ r, prngReg c r)) := by
  cases n with
  | zero => exact absurd rfl hz
  | succ n => rfl

/-! ## The pipeline's proof data -/

/-- The proof data of this pipeline on core `c`: the arrays as the region finds them; after the body each input's buffer at
    its tile and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = outAt V c t.val t.isLt := by dsimp only [dat1]

theorem before1_0 (c : Dev nD) (t : Fin cfg1.N) (d) : (dat1 V c).before 0 t d = tile1 V c 0 t :=
  before1_0_of V (dat1 V c) (A_eq1 V c 0) (after1_0 V c) t d
theorem before1_1 (c : Dev nD) (t : Fin cfg1.N) (d) : (dat1 V c).before 1 t d = tile1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves_in0 (c : Dev nD) (t : Fin cfg1.N) :
    (dat1 V c).leavesExact 0 t = owns (c : Thread nD τ) (ms0 t) fullShare (tile1 V c 0 t) := by
  unfold Dat.leavesExact; rw [live_in0 t, after1_0]
theorem leaves_in1 (c : Dev nD) (t : Fin cfg1.N) :
    (dat1 V c).leavesExact 1 t = owns (c : Thread nD τ) (ms1 t) fullShare (tile1 V c 1 t) := by
  unfold Dat.leavesExact; rw [live_in1 t, after1_1]

set_option maxHeartbeats 4800000 in
/-- The body at any point. The inputs' buffers hold their tiles; the point's number modulo 4 says which case it is in; the
    invariant hands the body the accumulator at what the point before left (at anything at the very first point) and takes it
    back at this point's contents; off the last step the output buffer is handed back as found, at the last step it is left
    at the accumulator's copy. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves_in0, leaves_in1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (idle_out t (not_last_of t h1)) (noflush_out t (not_last_of t h1))]
    rw [accAt_first V c t h0 h1]
    unfold accFirst; (try dsimp only)
    by_cases hz : t.val = 0
    · rw [PhiS_castSucc V c t, PhiS_zero V c _ _ hz]
      refine (sep_mono (PhiA1_split c) .rfl).trans ?_
      iintro ⟨⟨⟨Hoth, HS⟩, Hg⟩, Ho, ⟨%d0, H0⟩, ⟨%d1, H1⟩, ⟨%d2, H2⟩⟩
      iapply ((runFirst c (grid1.coords t) _ _ _ _ _ _ _ _ ((first_iff t).mpr h0) (not_last_of t h1) (tile1 V c 0 t) (tile1 V c 1 t)).2 Set.univ _)
      isplitl [H0]; · iexact H0
      isplitl [H1]; · iexact H1
      isplitl [HS]; · iexact HS
      iintro ⟨H0, H1, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Hoth, HS⟩, Hg⟩, Ho, ⟨%d0, H0⟩, ⟨%d1, H1⟩, ⟨%d2, H2⟩⟩
      iapply ((runFirst c (grid1.coords t) _ _ _ _ _ _ _ _ ((first_iff t).mpr h0) (not_last_of t h1) (tile1 V c 0 t) (tile1 V c 1 t)).2 Set.univ _)
      isplitl [H0]; · iexact H0
      isplitl [H1]; · iexact H1
      isplitl [HS]; · iexists _; iexact HS
      iintro ⟨H0, H1, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms2 t) fullShare ((dat1 V c).after 2 t) from by
        unfold Dat.leavesExact; rw [live_out t ((last_iff t).mpr h1)], after1_2]
      rw [accAt_last V c t h0 h1, outAt_last V c t h0 h1]
      unfold accLast outLast; (try dsimp only)
      rw [PhiS_castSucc V c t, PhiS_pos V c _ _ hz]
      iintro ⟨⟨⟨Hoth, HS⟩, Hg⟩, Ho, ⟨%d0, H0⟩, ⟨%d1, H1⟩, ⟨%d2, H2⟩⟩
      iapply ((runLast c (grid1.coords t) _ _ _ _ _ _ _ _ (not_first_of t h0) ((last_iff t).mpr h1) (tile1 V c 0 t) (tile1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c _ _ _ _ _ _ _ _ _ _ _ _ _ _)
    · rw [Dat.leavesExact_idle (dat1 V c) 2 t (idle_out t (not_last_of t h1)) (noflush_out t (not_last_of t h1))]
      rw [accAt_middle V c t h0 h1]
      unfold accMiddle; (try dsimp only)
      rw [PhiS_castSucc V c t, PhiS_pos V c _ _ hz]
      iintro ⟨⟨⟨Hoth, HS⟩, Hg⟩, Ho, ⟨%d0, H0⟩, ⟨%d1, H1⟩, ⟨%d2, H2⟩⟩
      iapply ((runMiddle c (grid1.coords t) _ _ _ _ _ _ _ _ (not_first_of t h0) (not_last_of t h1) (tile1 V c 0 t) (tile1 V c 1 t) _).2 Set.univ _)
      isplitl [H0]; · iexact H0
      isplitl [H1]; · iexact H1
      isplitl [HS]; · iexact HS
      iintro ⟨H0, H1, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (coverMiddle c _ _ _ _ _ _ _ _ _ _ _ _ _ _)
        iexact Hg
      isplitl [Ho]; · iexact Ho
      isplitl [H0]; · iexact H0
      isplitl [H1]; · iexact H1
      iexists _; iexact H2

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA1_join c)
  iintro ⟨⟨Hoth, HS⟩, Hg⟩
  isplitl [Hoth HS]
  · isplitl [Hoth]; · iexact Hoth
    iexists _; iexact HS
  iexact Hg

end Cert.KernelIdeal.Accum

end
-- ==== Proof.KernelIdeal.Whole.lean ====
/-
  The whole program as a run: one host operation (the mask's 0/1 image), then the two pallas_calls, at any float instance.

  The contents of the core's unscoped buffers are followed through @main: at launch the memory; after the host operation
  that memory with the 0/1 image written; after the first pallas_call the same with the table's array at what the
  pipeline's write-backs leave; after the second with the result's array at what its write-backs leave. Each pallas_call is
  a segment entered from "every unscoped buffer at the contents before it" and left at "every unscoped buffer at the
  contents after it", with the generator register and the core owing nothing riding along; inside, the first region keeps
  the scoped buffers it does not stage untouched, and the second carries its accumulator among them.

  The run theorem says: every weakly fair execution of @main terminates, nothing faulting, and at the end every unscoped
  buffer holds the last of those contents. The frame claim (the arguments end unchanged) and the result's value are both
  read off it.
-/
import proofs.«144428_j52922587021428_1_alg».proof.Proof.KernelIdeal.Tiles
import proofs.«144428_j52922587021428_1_alg».proof.Proof.KernelIdeal.Accum

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Tiles Cert.KernelIdeal.Accum

variable (m : (ℓ : Loc nD τ sig) → Buf (Elt F) ℓ) (ρ : Dev nD → PrngReg)

/-! ## The buffers' contents at each boundary of @main -/

/-- At launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first pallas_call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W2`, left at `W3`. The invariant starts as the scoped
    rest and the generator register and, after the last point, gives them back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## The arguments end as launched -/

theorem W1_of_not_written (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- x: read by the second region through an input window, bypassing the first. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

/-- W: read by the first region through an input window, bypassing the second. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of_not_written m ρ c main_arg1 (by decide)
    _ = m ((c : Thread nD τ).loc main_arg1) := rfl

/-- The mask: read only by the host operation. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

/-- THE FRAME: every weakly fair execution of @main terminates, nothing faulting, with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Whole

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.Payloads.lean ====
/-
  The arithmetic of the two kernel bodies, read at one entry of a 1024 × 1024 tile, over the extended reals.

  The first body multiplies its two loaded tiles entry by entry, applies the hyperbolic tangent, and transposes the
  result; the change of float format that follows is the identity on extended reals. So the stored tile at (p, q) is
  tanh of the product of the two operands at (q, p). The second body keeps an accumulator: its reset value is the
  zero splat, and its update adds to the old entry at (p, q) the product of the left tile by the right tile accumulated
  into zero, whose entry at (p, q) is the sum over the contracted coordinate c of left (p, c) times right (c, q). The
  shape casts between equal shapes are identities and the narrowing of the left operand is the identity as well.
-/
import proofs.«144428_j52922587021428_1_alg».proof.Proof.Gen.KernelIdeal.Skeleton
import proofs.«144428_j52922587021428_1_alg».proof.Proof.LibMatmulIdx
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Pay

open Cert.KernelIdeal Cert.KernelIdeal.Gen Idealize.ShloMosaic Idealize.ShloMosaic.ValueIdx

/-- The first body's stored tile: at `(p, q)` the tanh of the product of the two loaded tiles at `(q, p)` — the
    product, tanh, then the transpose; the change of float format is the identity. -/
theorem pre_pay_apply (v0 v1 : Vec Ideal S1024x1024 .f32) (p q : Fin 1024) :
    k0_pay1 (F := Ideal) v0 v1 (ix2 p q) = Ideal.tanh (v0 (ix2 q p) * v1 (ix2 q p)) := by
  unfold k0_pay1
  refine (truncf_apply (ψ := .bf16) _ bitsLt_bf16_f32 _).trans ?_
  refine (transpose_ix2_apply _ _ p q).trans ?_
  rw [shapeCast_self]
  rfl

/-- The accumulator's reset value is zero everywhere. -/
theorem zero_pay_apply (j : S1024x1024.Idx) : k1_pay1 (F := Ideal) j = 0 := by
  unfold k1_pay1
  rw [shapeCast_self]
  exact Ideal.ofBits_zero_f32

/-- The accumulator's update: the old entry plus row `p` of the left tile against column `q` of the right tile. -/
theorem acc_pay_apply (v3 v5 : Vec Ideal S1024x1024 .f32) (v6 : Vec Ideal S1024x1024 .bf16) (p q : Fin 1024) :
    k1_pay2 (F := Ideal) v3 v5 v6 (ix2 p q) = v5 (ix2 p q) + ∑ c : Fin 1024, v3 (ix2 p c) * v6 (ix2 c q) := by
  unfold k1_pay2
  rw [shapeCast_self, shapeCast_self]
  refine (addf_apply _ _ _).trans ?_
  refine congrArg (v5 (ix2 p q) + ·) ?_
  exact Cert.LibMatmulIdx.matmul_rc_apply _ none _ _ p q

end Cert.KernelIdeal.Pay

end
-- ==== Proof.Spec.lean ====
/-
  The function both programs compute, on the extended reals.

  The weights enter through a table: entry (k, n) of the table is tanh (W (n, k) · mask (n, k)) — the masked weight
  matrix under tanh, transposed. The result at row r and column n is the contraction of row r of x against column n
  of the table: the sum over k of x (r, k) · tanh (W (n, k) · mask (n, k)).

  The mask enters as a matrix of extended reals (the 0/1 image of the boolean mask); nothing here needs to know that
  its entries are 0 or 1.
-/
import Idealize.ShloMosaic.Lib.ValueIdx
import Idealize.ShloMosaic.PureOps.Ideal

open scoped BigOperators

noncomputable section

namespace Cert.TanhBlocks

open Idealize.ShloMosaic Idealize.ShloMosaic.ValueIdx

/-- The shape of x and of the result: 8192 rows, 4096 columns. -/
abbrev SX : Shape := ⟨2, ![8192, 4096]⟩
/-- The shape of W, of the mask and of the table: 4096 by 4096. -/
abbrev SW : Shape := ⟨2, ![4096, 4096]⟩

/-- The table: at (k, n), tanh of the masked weight at (n, k). -/
def wT (W mf : SW.Idx → EReal) : SW.Idx → EReal :=
  fun j => Ideal.tanh (W (ix2 (j 1) (j 0)) * mf (ix2 (j 1) (j 0)))

/-- The result: row r of x contracted against column n of the table. -/
def G (x : SX.Idx → EReal) (W mf : SW.Idx → EReal) : SX.Idx → EReal :=
  fun i => ∑ k : Fin 4096, x (ix2 (i 0) k) * wT W mf (ix2 k (i 1))

theorem wT_ix2 (W mf : SW.Idx → EReal) (k n : Fin 4096) :
    wT W mf (ix2 k n) = Ideal.tanh (W (ix2 n k) * mf (ix2 n k)) := rfl

theorem G_ix2 (x : SX.Idx → EReal) (W mf : SW.Idx → EReal) (r : Fin 8192) (n : Fin 4096) :
    G x W mf (ix2 r n) = ∑ k : Fin 4096, x (ix2 r k) * wT W mf (ix2 k n) := rfl

end Cert.TanhBlocks

end
-- ==== Proof.KernelIdeal.TableValue.lean ====
/-
  The table the first pallas_call leaves, on the extended reals: the whole 4096 × 4096 array, entry (a, b) equal to
  tanh (W (b, a) · mask (b, a)).

  Point (i, j) of the 4 × 4 grid writes tile (i, j) of the table from tile (j, i) of W and of the mask's 0/1 image; inside
  the tile the body transposes, so entry (p, q) of the written tile is tanh of the product of the two loaded tiles at (q, p).
  Tile (j, i) at (q, p) is the array's entry (1024 j + q, 1024 i + p), and tile (i, j) at (p, q) is the table's entry
  (1024 i + p, 1024 j + q): the two transposes — of the tile grid by the index maps, of each tile by the body — compose to
  the transpose of the whole matrix. The sixteen tiles cover the table, so after the region the whole array is that function.
-/
import proofs.«144428_j52922587021428_1_alg».proof.Proof.KernelIdeal.Tiles
import proofs.«144428_j52922587021428_1_alg».proof.Proof.Payloads
import proofs.«144428_j52922587021428_1_alg».proof.Proof.Spec
import Idealize.ShloMosaic.Lib.Pipeline.Value
import Idealize.ShloMosaic.Lib.ValueIdx

set_option maxRecDepth 16384

noncomputable section

namespace Cert.KernelIdeal.TableValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tiles Cert.KernelIdeal.Pay Cert.TanhBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: both inputs' tile coordinates are the output's, swapped; the output's stay below 4. -/
theorem idx_facts : ∀ t : Fin cfg0.N, win0_0.index t (0 : Fin 2) = win0_2.index t (1 : Fin 2)
    ∧ win0_0.index t (1 : Fin 2) = win0_2.index t (0 : Fin 2)
    ∧ win0_1.index t (0 : Fin 2) = win0_2.index t (1 : Fin 2)
    ∧ win0_1.index t (1 : Fin 2) = win0_2.index t (0 : Fin 2)
    ∧ win0_2.index t (0 : Fin 2) ≤ 3 ∧ win0_2.index t (1 : Fin 2) ≤ 3 :=
  (by decide +kernel : ∀ t : Fin grid0.N, _)

/-- Every tile of the table is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- An entry of the table from the two arrays' entries at the transposed index. -/
theorem tile_entry (W mf : SW.Idx → EReal) (a b k : SW.Idx) (ha : a = ix2 (k 1) (k 0)) (hb : b = ix2 (k 1) (k 0)) :
    Ideal.tanh (W a * mf b) = wT W mf k := by
  subst ha hb; rfl

/-- What point `t` writes back is tile `t` of the table of W and the mask image as the region finds them. -/
theorem flushed_eq (c : Dev nD) (t : Fin cfg0.N) :
    (dat0 V c).flushed 2 t = ((cfg0.win 2).blk t).view.read (Elt Ideal) (wT (V c main_arg1) (V c main_v0)) := by
  show (cfg0.win 2).cut (grid0.coords t) ((dat0 V c).after 2 t) = _
  rw [after0_2]
  unfold stored0
  rw [View.canon_unit_zero hz]
  simp only [View.ld_unit_zero (S := S1024x1024) hz]
  obtain ⟨e0, e1, e2, e3, e4, e5⟩ := idx_facts t
  funext j
  obtain ⟨p, q, rfl⟩ : ∃ (p q : Fin 1024), j = ix2 p q := ⟨j 0, j 1, eq_ix2 j⟩
  show k0_pay1 (F := Ideal) (tile0 V c 0 t) (tile0 V c 1 t) (ix2 p q) = wT (V c main_arg1) (V c main_v0) (((cfg0.win 2).blk t).view.emb (ix2 p q))
  refine (pre_pay_apply _ _ p q).trans ?_
  have h0 : ((cfg0.win 0).blk t).view.emb (ix2 q p) = (ix2 ((((cfg0.win 2).blk t).view.emb (ix2 p q)) 1) ((((cfg0.win 2).blk t).view.emb (ix2 p q)) 0) : S4096x4096.Idx) := by
    funext a; apply Fin.ext
    match a with
    | ⟨0, _⟩ => show win0_0.index t (0 : Fin 2) * 1024 + 1 * q.val = win0_2.index t (1 : Fin 2) * 1024 + 1 * q.val; omega
    | ⟨1, _⟩ => show win0_0.index t (1 : Fin 2) * 1024 + 1 * p.val = win0_2.index t (0 : Fin 2) * 1024 + 1 * p.val; omega
  have h1 : ((cfg0.win 1).blk t).view.emb (ix2 q p) = (ix2 ((((cfg0.win 2).blk t).view.emb (ix2 p q)) 1) ((((cfg0.win 2).blk t).view.emb (ix2 p q)) 0) : S4096x4096.Idx) := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 1024 + 1 * p.val = win0_2.index t (0 : Fin 2) * 1024 + 1 * p.val; omega
  exact tile_entry (V c main_arg1) (V c main_v0) (((cfg0.win 0).blk t).view.emb (ix2 q p)) (((cfg0.win 1).blk t).view.emb (ix2 q p))
    (((cfg0.win 2).blk t).view.emb (ix2 p q)) h0 h1

/-- An index of the table is in point `t`'s tile iff each coordinate is in the tile's range on its axis. -/
theorem mem_blk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every index of the table is in some written-back tile. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The table after the region. -/
theorem table_final (c : Dev nD) : (dat0 V c).arrAt 2 cfg0.N = wT (V c main_arg1) (V c main_v0) :=
  (dat0 V c).arrAt_eq_of_cover 2 (wT (V c main_arg1) (V c main_v0)) (fun t _ => flushed_eq V c t) cover

end Cert.KernelIdeal.TableValue

end
-- ==== Proof.KernelIdeal.StepValues.lean ====
/-
  What each case's run found, as the body's arithmetic: the accumulator after a first step is the update applied to the zero
  tile, after a middle or last step the update applied to what it held, and the output tile after a last step is that same
  updated accumulator. Stated at any float instance; the update and the zero tile are the body's two payload terms.
-/
import proofs.«144428_j52922587021428_1_alg».proof.Proof.KernelIdeal.Accum
import Idealize.ShloMosaic.Lib.Pipeline.Value

set_option maxRecDepth 16384

noncomputable section

namespace Cert.KernelIdeal.StepValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Steps Cert.KernelIdeal.Accum

theorem hz : (![0, 0] : Fin 2 → Nat) = fun _ => 0 := funext fun a => by fin_cases a <;> rfl

/-- A middle step: the update of what the accumulator held. -/
theorem accMiddle_eq (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : ¬last i) (x0 : Vec F S1024x1024 .f32) (x1 : Vec F S1024x1024 .bf16) (xs : Vec F S1024x1024 .f32) :
    accMiddle c i arg3 harg3 arg4 harg4 arg5 harg5 arg6 harg6 hc0 hc1 x0 x1 xs = k1_pay2 x0 xs x1 := by
  unfold accMiddle
  rw [View.read_writes_eq_canon _ _ _ (coverMiddle c i arg3 harg3 arg4 harg4 arg5 harg5 arg6 harg6 hc0 hc1 x0 x1 xs)]
  unfold runMiddle
  dsimp only
  sl_unfold_words
  rw [View.canon_unit_zero hz]
  simp only [View.readAt_eq_ld, harg3.read_unread, harg4.read_unread, harg6.read_unread, View.ld_unit_zero (S := S1024x1024) hz]

/-- A last step: the same update, -/
theorem accLast_eq (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) :
    accLast c i arg3 harg3 arg4 harg4 arg5 harg5 arg6 harg6 hc0 hc1 x0 x1 xs = k1_pay2 x0 xs x1 := by
  unfold accLast
  rw [View.read_writes_eq_canon _ _ _ (coverLast c i arg3 harg3 arg4 harg4 arg5 harg5 arg6 harg6 hc0 hc1 x0 x1 xs)]
  unfold runLast
  dsimp only
  sl_unfold_words
  rw [View.canon_unit_zero hz]
  simp only [View.readAt_eq_ld, harg3.read_unread, harg4.read_unread, harg6.read_unread, View.ld_unit_zero (S := S1024x1024) hz]

/-- and the output tile is the updated accumulator, copied. -/
theorem outLast_eq (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬first i) (hc1 : last i) (x0 : Vec F S1024x1024 .f32) (x1 : Vec F S1024x1024 .bf16) (xs : Vec F S1024x1024 .f32) :
    outLast c i arg3 harg3 arg4 harg4 arg5 harg5 arg6 harg6 hc0 hc1 x0 x1 xs = k1_pay2 x0 xs x1 := by
  unfold outLast
  rw [View.read_writes_eq_canon _ _ _ (coverOut c i arg3 harg3 arg4 harg4 arg5 harg5 arg6 harg6 hc0 hc1 x0 x1 xs)]
  unfold runLast
  dsimp only
  sl_unfold_words
  rw [View.canon_unit_zero hz, View.readCov_unit_zero _ hz]
  simp only [View.readAt_eq_ld, harg3.read_unread, harg4.read_unread, harg6.read_unread, View.ld_unit_zero (S := S1024x1024) hz]

/-- A first step: the update of the zero tile. -/
theorem accFirst_eq (c : Dev nD) (i : grid1.Coords) (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : first i) (hc1 : ¬last i) (x0 : Vec F S1024x1024 .f32) (x1 : Vec F S1024x1024 .bf16) :
    accFirst c i arg3 harg3 arg4 harg4 arg5 harg5 arg6 harg6 hc0 hc1 x0 x1 = k1_pay2 x0 (k1_pay1 (F := F)) x1 := by
  unfold accFirst
  rw [View.read_writes_eq_canon _ _ _ (coverFirst c i arg3 harg3 arg4 harg4 arg5 harg5 arg6 harg6 hc0 hc1 x0 x1)]
  unfold runFirst
  dsimp only
  sl_unfold_words
  rw [View.canon_cons_unit_zero hz, View.readCov_unit_zero _ hz]
  simp only [View.readAt_eq_ld, harg3.read_unread, harg4.read_unread, View.ld_unit_zero (S := S1024x1024) hz]

end Cert.KernelIdeal.StepValues

end
-- ==== Proof.LibBlockSum.lean ====
/-
  Sums cut into consecutive runs, and arrays read at natural-number coordinates.

  A sum over the first n·b naturals is the sum over n runs of b consecutive ones; over `Fin (n·b)` it is the sum over the
  runs of the sums over `Fin b`. This is the only law that joins a contraction over 4096 coordinates to the same
  contraction taken 1024 coordinates at a time: it uses that addition is associative and commutative, nothing else, so it
  holds in any commutative monoid — the extended reals among them, infinities included.

  A matrix read at a pair of naturals (each taken modulo its extent, so that the read is total) lets a block's entry be
  named by arithmetic on its position, with no proof that the position is in range carried inside a sum.
-/
import Idealize.ShloMosaic.Lib.ValueIdx

open scoped BigOperators

namespace Cert.LibBlockSum

open Idealize.ShloMosaic Idealize.ShloMosaic.ValueIdx

/-! ## A sum cut into runs -/

/-- The first `n · b` naturals are `n` runs of `b`: run `s` is `s·b, …, s·b + b − 1`. -/
theorem sum_range_runs {β : Type*} [AddCommMonoid β] (f : ℕ → β) (b : ℕ) : ∀ n : ℕ,
    ∑ k ∈ Finset.range (n * b), f k = ∑ s ∈ Finset.range n, ∑ d ∈ Finset.range b, f (s * b + d)
  | 0 => by simp
  | n + 1 => by
    rw [Nat.succ_mul, Finset.sum_range_add, sum_range_runs f b n, Finset.sum_range_succ]

/-- The same over `Fin (n · b)` and `Fin b`. -/
theorem sum_fin_runs {β : Type*} [AddCommMonoid β] (f : ℕ → β) (n b : ℕ) :
    ∑ k : Fin (n * b), f k.val = ∑ s ∈ Finset.range n, ∑ d : Fin b, f (s * b + d.val) := by
  rw [Fin.sum_univ_eq_sum_range (fun k => f k) (n * b), sum_range_runs f b n]
  refine Finset.sum_congr rfl fun s _ => ?_
  rw [← Fin.sum_univ_eq_sum_range (fun d => f (s * b + d)) b]

/-! ## A matrix read at natural coordinates -/

/-- The entry of an `[a, b]` array at row `r`, column `k`, the two taken modulo the extents. -/
def nat2 {α : Type} (a b : ℕ) (ha : 0 < a) (hb : 0 < b) (A : (⟨2, ![a, b]⟩ : Shape).Idx → α) (r k : ℕ) : α :=
  A (ix2 ⟨r % a, Nat.mod_lt _ ha⟩ ⟨k % b, Nat.mod_lt _ hb⟩)

/-- At coordinates in range it is the entry there. -/
theorem nat2_eq {α : Type} (a b : ℕ) (ha : 0 < a) (hb : 0 < b) (A : (⟨2, ![a, b]⟩ : Shape).Idx → α) (r k : ℕ)
    (i : (⟨2, ![a, b]⟩ : Shape).Idx) (h0 : (i 0).val = r) (h1 : (i 1).val = k) : nat2 a b ha hb A r k = A i := by
  unfold nat2
  refine congrArg A (funext fun d => Fin.ext ?_)
  match d with
  | ⟨0, _⟩ => show r % a = (i 0).val; rw [← h0]; exact Nat.mod_eq_of_lt (idx2_lt0 i)
  | ⟨1, _⟩ => show k % b = (i 1).val; rw [← h1]; exact Nat.mod_eq_of_lt (idx2_lt1 i)

end Cert.LibBlockSum
-- ==== Proof.KernelIdeal.ProductValue.lean ====
/-
  The result the second pallas_call leaves, on the extended reals: the whole 8192 × 4096 array, entry (r, n) equal to the sum
  over k of x (r, k) · T (k, n), where T is the table as the region finds it.

  Points are numbered with the contraction coordinate fastest: point t handles rows 1024 ⌊t/16⌋ + p, columns
  1024 (⌊t/4⌋ mod 4) + q and contraction coordinates 1024 (t mod 4) + d. The accumulator after point t holds, at (p, q), the sum
  over the contraction blocks u ≤ t mod 4 of the sums over d of x (row, 1024 u + d) · T (1024 u + d, column): at t mod 4 = 0
  this is zero plus the first block, and each later point adds its block to what the point before left, which has the same
  rows and columns. At t mod 4 = 3 all four blocks are in, the output tile is that accumulator, and four runs of 1024
  consecutive coordinates are the 4096 coordinates: the tile's entry is the whole contraction. Only associativity and
  commutativity of addition are used, so nothing depends on the entries being finite. The thirty-two written-back tiles cover
  the result.
-/
import proofs.«144428_j52922587021428_1_alg».proof.Proof.KernelIdeal.StepValues
import proofs.«144428_j52922587021428_1_alg».proof.Proof.Payloads
import proofs.«144428_j52922587021428_1_alg».proof.Proof.Spec
import proofs.«144428_j52922587021428_1_alg».proof.Proof.LibBlockSum
import Idealize.ShloMosaic.Lib.Pipeline.Value
import Idealize.ShloMosaic.Lib.ValueIdx

set_option maxRecDepth 16384

noncomputable section

namespace Cert.KernelIdeal.ProductValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Steps Cert.KernelIdeal.Accum Cert.KernelIdeal.StepValues Cert.KernelIdeal.Pay Cert.TanhBlocks Cert.LibBlockSum
open Idealize.ShloMosaic.ValueIdx
open scoped BigOperators

/-- Rows of x against columns of a table: the contraction over all 4096 coordinates. -/
def prod (x : SX.Idx → EReal) (T : SW.Idx → EReal) : SX.Idx → EReal :=
  fun i => ∑ k : Fin 4096, x (ix2 (i 0) k) * T (ix2 k (i 1))

theorem G_eq_prod (x : SX.Idx → EReal) (W mf : SW.Idx → EReal) : G x W mf = prod x (wT W mf) := rfl

/-- The two arrays read at natural coordinates (modulo the extents, so the read is total). -/
def X (x : SX.Idx → EReal) (r k : ℕ) : EReal := nat2 8192 4096 (by decide) (by decide) x r k
def B (T : SW.Idx → EReal) (k n : ℕ) : EReal := nat2 4096 4096 (by decide) (by decide) T k n

/-- The sum over the first `s` contraction blocks, for point number `n`'s rows and columns, at (p, q) of the tile. -/
def partialSum (x : SX.Idx → EReal) (T : SW.Idx → EReal) (n s : ℕ) (p q : Fin 1024) : EReal :=
  ∑ u ∈ Finset.range s, ∑ d : Fin 1024, X x (n / 16 * 1024 + p.val) (u * 1024 + d.val) * B T (u * 1024 + d.val) (n / 4 % 4 * 1024 + q.val)

variable (V : (c : Dev nD) → (b : Ref sig .tc) → Buf (Elt Ideal) ((c : Thread nD τ).loc b))

/-- The index maps over the grid, in closed form. -/
theorem idx_facts : ∀ t : Fin cfg1.N, win1_0.index t (0 : Fin 2) = t.val / 16
    ∧ win1_0.index t (1 : Fin 2) = t.val % 4
    ∧ win1_1.index t (0 : Fin 2) = t.val % 4
    ∧ win1_1.index t (1 : Fin 2) = t.val / 4 % 4
    ∧ win1_2.index t (0 : Fin 2) = t.val / 16
    ∧ win1_2.index t (1 : Fin 2) = t.val / 4 % 4 :=
  (by decide +kernel : ∀ t : Fin grid1.N, _)

/-- Every tile of the result is written back by some point. -/
theorem idx_onto : ∀ (q0 : Fin 8) (q1 : Fin 4), ∃ t : Fin cfg1.N, (cfg1.win 2).flush t = true ∧ win1_2.index t = ![q0.val, q1.val] :=
  (by decide +kernel : ∀ (q0 : Fin 8) (q1 : Fin 4), ∃ t : Fin grid1.N, win1_2.flush t = true ∧ win1_2.index t = ![q0.val, q1.val])

/-- The x tile's entries are x's, at the point's rows and contraction block. -/
theorem tile_x (c : Dev nD) (t : Fin cfg1.N) (p d : Fin 1024) :
    tile1 V c 0 t (ix2 p d) = X (V c main_arg0) (t.val / 16 * 1024 + p.val) (t.val % 4 * 1024 + d.val) := by
  obtain ⟨e0, e1, e2, e3, e4, e5⟩ := idx_facts t
  show V c main_arg0 (((cfg1.win 0).blk t).view.emb (ix2 p d)) = _
  refine (nat2_eq 8192 4096 (by decide) (by decide) (V c main_arg0) _ _ (((cfg1.win 0).blk t).view.emb (ix2 p d)) ?_ ?_).symm
  · show win1_0.index t (0 : Fin 2) * 1024 + 1 * p.val = t.val / 16 * 1024 + p.val; omega
  · show win1_0.index t (1 : Fin 2) * 1024 + 1 * d.val = t.val % 4 * 1024 + d.val; omega

/-- The table tile's entries are the table's, at the point's contraction block and columns. -/
theorem tile_b (c : Dev nD) (t : Fin cfg1.N) (d q : Fin 1024) :
    tile1 V c 1 t (ix2 d q) = B (V c main_v1) (t.val % 4 * 1024 + d.val) (t.val / 4 % 4 * 1024 + q.val) := by
  obtain ⟨e0, e1, e2, e3, e4, e5⟩ := idx_facts t
  show V c main_v1 (((cfg1.win 1).blk t).view.emb (ix2 d q)) = _
  refine (nat2_eq 4096 4096 (by decide) (by decide) (V c main_v1) _ _ (((cfg1.win 1).blk t).view.emb (ix2 d q)) ?_ ?_).symm
  · show win1_1.index t (0 : Fin 2) * 1024 + 1 * d.val = t.val % 4 * 1024 + d.val; omega
  · show win1_1.index t (1 : Fin 2) * 1024 + 1 * q.val = t.val / 4 % 4 * 1024 + q.val; omega

/-- One update of the accumulator at (p, q): what it held plus the point's contraction block. -/
theorem update_apply (c : Dev nD) (t : Fin cfg1.N) (acc : Vec Ideal S1024x1024 .f32) (p q : Fin 1024) :
    k1_pay2 (F := Ideal) (tile1 V c 0 t) acc (tile1 V c 1 t) (ix2 p q)
      = acc (ix2 p q) + ∑ d : Fin 1024, X (V c main_arg0) (t.val / 16 * 1024 + p.val) (t.val % 4 * 1024 + d.val)
          * B (V c main_v1) (t.val % 4 * 1024 + d.val) (t.val / 4 % 4 * 1024 + q.val) := by
  refine (acc_pay_apply _ _ _ p q).trans ?_
  refine congrArg (acc (ix2 p q) + ·) (Finset.sum_congr rfl fun d _ => ?_)
  rw [tile_x V c t p d, tile_b V c t d q]

/-- THE ACCUMULATOR after point `n`: the blocks up to the point's own. -/
theorem accAt_eq (c : Dev nD) : ∀ (n : ℕ) (hn : n < cfg1.N) (p q : Fin 1024),
    accAt V c n hn (ix2 p q) = partialSum (V c main_arg0) (V c main_v1) n (n % 4 + 1) p q := by
  intro n
  induction n with
  | zero =>
    intro hn p q
    have e := accAt_first V c ⟨0, hn⟩ (Nat.zero_mod _) (by show ¬(0 % 4 = 3); decide)
    rw [show accAt V c 0 hn = accAt V c (⟨0, hn⟩ : Fin cfg1.N).val (⟨0, hn⟩ : Fin cfg1.N).isLt from rfl, e, accFirst_eq]
    refine (update_apply V c ⟨0, hn⟩ _ p q).trans ?_
    rw [zero_pay_apply, zero_add]
    unfold partialSum
    simp only [Nat.zero_mod, Nat.zero_div, zero_add, Finset.sum_range_one, Nat.zero_mul]
  | succ n ih =>
    intro hn p q
    have hN : n + 1 < 128 := lt_of_lt_of_eq hn (show cfg1.N = 128 from N_1)
    by_cases h0 : (n + 1) % 4 = 0
    · have h1 : ¬(n + 1) % 4 = 3 := by omega
      have e := accAt_first V c ⟨n + 1, hn⟩ h0 h1
      rw [show accAt V c (n + 1) hn = accAt V c (⟨n + 1, hn⟩ : Fin cfg1.N).val (⟨n + 1, hn⟩ : Fin cfg1.N).isLt from rfl, e, accFirst_eq]
      refine (update_apply V c ⟨n + 1, hn⟩ _ p q).trans ?_
      rw [zero_pay_apply, zero_add]
      unfold partialSum
      show _ = ∑ u ∈ Finset.range ((n + 1) % 4 + 1), _
      rw [h0, zero_add, Finset.sum_range_one]
    · have hprev := ih (Nat.lt_of_succ_lt hn) p q
      have hstep : k1_pay2 (F := Ideal) (tile1 V c 0 ⟨n + 1, hn⟩) (accAt V c n (Nat.lt_of_succ_lt hn)) (tile1 V c 1 ⟨n + 1, hn⟩) (ix2 p q)
          = partialSum (V c main_arg0) (V c main_v1) (n + 1) ((n + 1) % 4 + 1) p q := by
        refine (update_apply V c ⟨n + 1, hn⟩ _ p q).trans ?_
        rw [hprev]
        unfold partialSum
        dsimp only
        have ea : n / 16 = (n + 1) / 16 := by omega
        have eb : n / 4 % 4 = (n + 1) / 4 % 4 := by omega
        have ec : n % 4 + 1 = (n + 1) % 4 := by omega
        rw [ea, eb, ec, Finset.sum_range_succ]
      by_cases h1 : (n + 1) % 4 = 3
      · have e := accAt_last V c ⟨n + 1, hn⟩ h0 h1
        rw [show accAt V c (n + 1) hn = accAt V c (⟨n + 1, hn⟩ : Fin cfg1.N).val (⟨n + 1, hn⟩ : Fin cfg1.N).isLt from rfl, e, accLast_eq]
        exact hstep
      · have e := accAt_middle V c ⟨n + 1, hn⟩ h0 h1
        rw [show accAt V c (n + 1) hn = accAt V c (⟨n + 1, hn⟩ : Fin cfg1.N).val (⟨n + 1, hn⟩ : Fin cfg1.N).isLt from rfl, e, accMiddle_eq]
        exact hstep

/-- Four runs of 1024 are the 4096 contraction coordinates. -/
theorem partial_four (x : SX.Idx → EReal) (T : SW.Idx → EReal) (n : ℕ) (p q : Fin 1024) (i : SX.Idx)
    (h0 : (i 0).val = n / 16 * 1024 + p.val) (h1 : (i 1).val = n / 4 % 4 * 1024 + q.val) :
    partialSum x T n 4 p q = prod x T i := by
  unfold partialSum prod
  have hruns := sum_fin_runs (fun k => X x (n / 16 * 1024 + p.val) k * B T k (n / 4 % 4 * 1024 + q.val)) 4 1024
  refine hruns.symm.trans ?_
  show (∑ k : Fin 4096, X x (n / 16 * 1024 + p.val) k.val * B T k.val (n / 4 % 4 * 1024 + q.val)) = _
  refine Finset.sum_congr rfl fun k _ => ?_
  have ex : X x (n / 16 * 1024 + p.val) k.val = x (ix2 (i 0) k) :=
    nat2_eq 8192 4096 (by decide) (by decide) x _ _ (ix2 (i 0) k) h0 rfl
  have eb : B T k.val (n / 4 % 4 * 1024 + q.val) = T (ix2 k (i 1)) :=
    nat2_eq 4096 4096 (by decide) (by decide) T _ _ (ix2 k (i 1)) rfl h1
  rw [ex, eb]

/-- What a last-step point writes back is its tile of the product. -/
theorem flushed_eq (c : Dev nD) (t : Fin cfg1.N) (hf : (cfg1.win 2).flush t = true) :
    (dat1 V c).flushed 2 t = ((cfg1.win 2).blk t).view.read (Elt Ideal) (prod (V c main_arg0) (V c main_v1)) := by
  have h1 : t.val % 4 = 3 := (flush1_2 t).mp hf
  have h0 : ¬t.val % 4 = 0 := by omega
  have hN : t.val < 128 := lt_of_lt_of_eq t.isLt (show cfg1.N = 128 from N_1)
  obtain ⟨e0, e1, e2, e3, e4, e5⟩ := idx_facts t
  show (cfg1.win 2).cut (grid1.coords t) ((dat1 V c).after 2 t) = _
  rw [after1_2, outAt_last V c t h0 h1, outLast_eq, ← accLast_eq c (grid1.coords t) (ms0 t) (hs0 t) (ms1 t) (hs1 t) (ms2 t) (hs2 t) accM (Memref.isWhole_whole _) (not_first_of t h0) ((last_iff t).mpr h1), ← accAt_last V c t h0 h1]
  funext j
  obtain ⟨p, q, rfl⟩ : ∃ (p q : Fin 1024), j = ix2 p q := ⟨j 0, j 1, eq_ix2 j⟩
  show accAt V c t.val t.isLt (ix2 p q) = prod (V c main_arg0) (V c main_v1) (((cfg1.win 2).blk t).view.emb (ix2 p q))
  rw [accAt_eq V c t.val t.isLt p q, h1]
  refine partial_four _ _ t.val p q _ ?_ ?_
  · show win1_2.index t (0 : Fin 2) * 1024 + 1 * p.val = t.val / 16 * 1024 + p.val; omega
  · show win1_2.index t (1 : Fin 2) * 1024 + 1 * q.val = t.val / 4 % 4 * 1024 + q.val; omega

/-- An index of the result is in point `t`'s tile iff each coordinate is in the tile's range on its axis. -/
theorem mem_blk (t : Fin cfg1.N) (i : S8192x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- Every index of the result is in some written-back tile. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, hf, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, hf, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The result after the region. -/
theorem product_final (c : Dev nD) : (dat1 V c).arrAt 2 cfg1.N = prod (V c main_arg0) (V c main_v1) :=
  (dat1 V c).arrAt_eq_of_cover 2 (prod (V c main_arg0) (V c main_v1)) (fun t hf => flushed_eq V c t hf) cover

end Cert.KernelIdeal.ProductValue

end
-- ==== Proof.KernelIdeal.Result.lean ====
/-
  The result array after the whole program, on the extended reals, as a function of the three arguments.

  Following the buffers through @main: the mask's 0/1 image is what the host operation wrote; W and the mask reach the first
  pallas_call as launched, so the table it leaves is tanh (W · mask) transposed; x reaches the second pallas_call as launched
  and the table as the first left it, so the result is x's rows contracted against the table's columns — the specification.
-/
import proofs.«144428_j52922587021428_1_alg».proof.Proof.KernelIdeal.Whole
import proofs.«144428_j52922587021428_1_alg».proof.Proof.KernelIdeal.TableValue
import proofs.«144428_j52922587021428_1_alg».proof.Proof.KernelIdeal.ProductValue
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tiles Cert.KernelIdeal.Accum Cert.KernelIdeal.Whole Cert.KernelIdeal.TableValue Cert.KernelIdeal.ProductValue
open Cert.TanhBlocks Idealize.ShloMosaic.StableHlo

variable (m : (ℓ : Loc nD τ sig) → Buf (Elt Ideal) ℓ) (ρ : Dev nD → PrngReg)

/-- W reaches the first region as launched. -/
theorem V1_arg1 (c : Dev nD) : V1 m ρ c main_arg1 = m ((c : Thread nD τ).loc main_arg1) :=
  (W1_of_not_written m ρ c main_arg1 (by decide)).trans rfl

/-- The mask's image is what the host operation wrote: the 0/1 image of the launched mask. -/
theorem V1_mask (c : Dev nD) : V1 m ρ c main_v0 = uitofp (F := Ideal) .f32 (m ((c : Thread nD τ).loc main_arg2)) := by
  show StableHlo.after hostOps0 (W0 m ρ c) (Proc.devRef .tc main_v0) = _
  after_results

/-- x reaches the second region as launched. -/
theorem V2_arg0 (c : Dev nD) : V2 m ρ c main_arg0 = m ((c : Thread nD τ).loc main_arg0) :=
  (W2_of_ne m ρ c main_arg0 (by decide)).trans ((W1_of_not_written m ρ c main_arg0 (by decide)).trans rfl)

/-- The table reaches the second region as the first left it. -/
theorem V2_table (c : Dev nD) :
    V2 m ρ c main_v1 = wT (m ((c : Thread nD τ).loc main_arg1)) (uitofp (F := Ideal) .f32 (m ((c : Thread nD τ).loc main_arg2))) := by
  refine (W2_arr m ρ c 2).trans ((table_final (V1 m ρ) c).trans ?_)
  exact congrArg₂ wT (V1_arg1 m ρ c) (V1_mask m ρ c)

/-- THE RESULT: the last boundary's contents at the result array are the specification of the launched arguments. -/
theorem result_eq (c : Dev nD) :
    W3 m ρ c (Proc.devRef .tc main_v2)
      = G (m ((c : Thread nD τ).loc main_arg0)) (m ((c : Thread nD τ).loc main_arg1)) (uitofp (F := Ideal) .f32 (m ((c : Thread nD τ).loc main_arg2))) := by
  refine (W3_arr m ρ c 2).trans ((product_final (V2 m ρ) c).trans ?_)
  exact congrArg₂ prod (V2_arg0 m ρ c) (V2_table m ρ c)

end Cert.KernelIdeal.Result

end
-- ==== Proof.RefValue.lean ====
/-
  The reference program, read one operation at a time on the extended reals, is the specification.

  The reference converts the boolean mask to its 0/1 image, multiplies the weight matrix by it entrywise, takes tanh of
  every entry, transposes the resulting 4096 by 4096 matrix, and contracts x against the transposed matrix along x's second
  axis and the matrix's first. Read at a result position (r, n) this is the sum over k of x (r, k) times the transposed
  matrix at (k, n); the transposed matrix at (k, n) is the tanh matrix at (n, k), which is tanh (W (n, k) · mask (n, k)).
  That is, summand by summand, the sum defining G at (r, n): x (r, k) times the table entry (k, n). No finiteness or
  0/1 hypothesis on the entries is used; the two sums agree term by term.
-/
import proofs.«144428_j52922587021428_1_alg».proof.Proof.Gen.ReferenceIdeal.Read
import proofs.«144428_j52922587021428_1_alg».proof.Proof.Spec

open scoped BigOperators

noncomputable section

namespace Cert.ReferenceIdeal.RefValue

open Cert.ReferenceIdeal Cert.ReferenceIdeal.Read Idealize.ShloMosaic Idealize.ShloMosaic.ValueIdx

/-- The left operand's position for result position (r, n) and contraction coordinate k is (r, k). -/
theorem lidx_eq (r : Fin 8192) (n k : Fin 4096) : lidx_main_v4 (ix2 r n) k = ix2 r k :=
  funext fun a => Fin.ext (by match a with | ⟨0, _⟩ => rfl | ⟨1, _⟩ => rfl)

/-- The right operand's position for result position (r, n) and contraction coordinate k is (k, n). -/
theorem ridx_eq (r : Fin 8192) (n k : Fin 4096) : ridx_main_v4 (ix2 r n) k = ix2 k n :=
  funext fun a => Fin.ext (by match a with | ⟨0, _⟩ => rfl | ⟨1, _⟩ => rfl)

/-- The transpose reads position (k, n) of its result from position (n, k) of its operand. -/
theorem tidx_eq (k n : Fin 4096) : idx_main_v3 (ix2 k n) = ix2 n k :=
  funext fun a => Fin.ext (by match a with | ⟨0, _⟩ => rfl | ⟨1, _⟩ => rfl)

/-- The reference's result is the specification: row r of x against column n of the tanh table. -/
theorem ref_eq (x0 : (⟨S8192x4096, .f32⟩ : BufTy).Contents (Elt Ideal)) (x1 : (⟨S4096x4096, .f32⟩ : BufTy).Contents (Elt Ideal))
    (x2 : (⟨S4096x4096, .i1⟩ : BufTy).Contents (Elt Ideal)) :
    val_main_v4 (F := Ideal) x0 x1 x2 = Cert.TanhBlocks.G x0 x1 (uitofp (F := Ideal) .f32 x2) := by
  funext i
  obtain ⟨r, n, rfl⟩ : ∃ (r : Fin 8192) (n : Fin 4096), i = ix2 r n := ⟨i 0, i 1, eq_ix2 i⟩
  rw [val_main_v4_apply, Cert.TanhBlocks.G_ix2]
  refine Finset.sum_congr rfl fun k _ => ?_
  rw [lidx_eq, ridx_eq, val_main_v3_apply, tidx_eq, val_main_v2_apply, val_main_v1_apply, Cert.TanhBlocks.wT_ix2]
  simp only [Ideal.hostUnary_tanh_def, Ideal.mulf_def]
  rfl

end Cert.ReferenceIdeal.RefValue

end
-- ==== Proof.lean ====
/-
  The kernel computes out = x · tanh (W ∘ mask)ᵀ in two pallas_calls — the tanh table, tile by tile and already transposed;
  then a tiled product accumulated over four contraction blocks — where the reference computes tanh (W ∘ mask), transposes
  it, and takes one whole matrix product. On the extended reals both are, at row r and column n,
  the sum over k of x (r, k) · tanh (W (n, k) · mask (n, k)):
  a change of float format is the identity there, the kernel's tanh and the host's are one function, and a sum taken in four
  runs of 1024 is the sum over all 4096 coordinates by associativity and commutativity alone — so the precondition
  (finite inputs) is never opened.

  The three frames: the kernel's two programs (word-level and idealized) by the run of their three segments — the host
  operation, the two pipelined regions, the second carrying its accumulator in the region's invariant —, the reference's by its
  operations' run. The idealization rewrote nothing, so that conjunct is trivial. The algebraic conjunct reads the result
  array off the kernel's run (the last boundary's contents) and the reference's result off its run, both equal to one
  function of the arguments.
-/
import proofs.«144428_j52922587021428_1_alg».proof.Defs
import proofs.«144428_j52922587021428_1_alg».proof.Proof.Gen.Kernel
import proofs.«144428_j52922587021428_1_alg».proof.Proof.Gen.KernelIdeal
import proofs.«144428_j52922587021428_1_alg».proof.Proof.Gen.ReferenceIdeal
import proofs.«144428_j52922587021428_1_alg».proof.Proof.Gen.Pre_finite_inputs
import proofs.«144428_j52922587021428_1_alg».proof.Proof.Gen.ReferenceIdeal.Run
import proofs.«144428_j52922587021428_1_alg».proof.Proof.Gen.ReferenceIdeal.Read
import proofs.«144428_j52922587021428_1_alg».proof.Proof.Kernel.Whole
import proofs.«144428_j52922587021428_1_alg».proof.Proof.KernelIdeal.Whole
import proofs.«144428_j52922587021428_1_alg».proof.Proof.KernelIdeal.Result
import proofs.«144428_j52922587021428_1_alg».proof.Proof.RefValue
import proofs.«144428_j52922587021428_1_alg».proof.Proof.Spec

noncomputable section

namespace Cert.Proof

open Idealize.ShloMosaic Idealize.ShloMosaic.TcCoe Idealize.SL.Sem

/-- The word-level kernel runs to the end, faults nowhere, and leaves its arguments unchanged. -/
theorem frame_kernel : Cert.frame_Kernel (hKernel := Cert.Kernel.Gen.facts) (hPre_finite_inputs := Cert.Pre_finite_inputs.Gen.facts) :=
  fun m ρ _ => Cert.Kernel.Whole.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Whole.frame m ρ

/-- And the reference: its operations' run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the specification of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.TanhBlocks.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (uitofp (F := Ideal) .f32 (m ((c.tc : Thread Cert.KernelIdeal.nD Cert.KernelIdeal.τ).loc Cert.KernelIdeal.main_arg2))), ?_, ?_⟩
  · refine (θ_run Cert.KernelIdeal.defs _ _).mono (fun _ h c => ⟨?_, ?_, ?_, ?_⟩) (Cert.KernelIdeal.Whole.run_all (F := Ideal) m ρ)
    · exact (h c _ (Cert.KernelIdeal.Whole.mem_uc Cert.KernelIdeal.main_v2 (by decide))).trans (Cert.KernelIdeal.Result.result_eq m ρ c)
    · exact (h c _ (Cert.KernelIdeal.Whole.mem_uc Cert.KernelIdeal.main_arg0 (by decide))).trans (Cert.KernelIdeal.Whole.W3_main_arg0 m ρ c)
    · exact (h c _ (Cert.KernelIdeal.Whole.mem_uc Cert.KernelIdeal.main_arg1 (by decide))).trans (Cert.KernelIdeal.Whole.W3_main_arg1 m ρ c)
    · exact (h c _ (Cert.KernelIdeal.Whole.mem_uc Cert.KernelIdeal.main_arg2 (by decide))).trans (Cert.KernelIdeal.Whole.W3_main_arg2 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
